-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1500x1000 : Shape := ⟨3, ![64, 1500, 1000]⟩
abbrev S1500x512 : Shape := ⟨2, ![1500, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S64x1500x1000 : S_.BroadcastsInDim S64x1500x1000 (![] : Fin 0 → Fin S64x1500x1000.rank)
  reducesTo_S64x1500x1000_S_d0_1_2 : S64x1500x1000.ReducesTo [0, 1, 2] S_
  h_S_ : 0 < S_.numel
  bcast_S_S1500x512 : S_.BroadcastsInDim S1500x512 (![] : Fin 0 → Fin S1500x512.rank)
  reducesTo_S1500x512_S_d0_1 : S1500x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S64x1500x1000 .f32) (main_arg1 : FVec F S1500x512 .f32) (main_arg2 : FVec F S512 .f32) (main_arg3 : FVec F S512x1 .f32) (main_arg4 : FVec F S1 .f32) : IVec S_ 1 :=
  let main_v0 : FVec F S64x1500x1000 .f32 := Host.absf main_arg0
  let main_cst : FVec F S_ .f32 := constant S_ .f32 0x7F800000#32
  let main_v1 : FVec F S64x1500x1000 .f32 := broadcastInDim S64x1500x1000 ![] bcast_S_S64x1500x1000 main_cst
  let main_v2 : IVec S64x1500x1000 1 := cmpf .olt main_v0 main_v1
  let main_c : IVec S_ 1 := constantI S_ 1 1#1
  let main_v3 : IVec S_ 1 := (fun x v => Host.reduce IntOp.andi x v reducesTo_S64x1500x1000_S_d0_1_2 h_S_) main_v2 main_c
  let main_v4 : FVec F S1500x512 .f32 := Host.absf main_arg1
  let main_cst_0 : FVec F S_ .f32 := constant S_ .f32 0x7F800000#32
  let main_v5 : FVec F S1500x512 .f32 := broadcastInDim S1500x512 ![] bcast_S_S1500x512 main_cst_0
  let main_v6 : IVec S1500x512 1 := cmpf .olt main_v4 main_v5
  let main_c_1 : IVec S_ 1 := constantI S_ 1 1#1
  let main_v7 : IVec S_ 1 := (fun x v => Host.reduce IntOp.andi x v reducesTo_S1500x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg4 main_v13 main_v16
-- ==== Kernel.lean ====
abbrev S64x1500x1000 : Shape := ⟨3, ![64, 1500, 1000]⟩
abbrev S1500x512 : Shape := ⟨2, ![1500, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S64x1x1000 : Shape := ⟨3, ![64, 1, 1000]⟩
abbrev S64x1x1500 : Shape := ⟨3, ![64, 1, 1500]⟩
abbrev S1x1500x1000 : Shape := ⟨3, ![1, 1500, 1000]⟩
abbrev S1x1x1000 : Shape := ⟨3, ![1, 1, 1000]⟩
abbrev S1x1x1500 : Shape := ⟨3, ![1, 1, 1500]⟩
abbrev S1500x1000 : Shape := ⟨2, ![1500, 1000]⟩
abbrev S512x1000 : Shape := ⟨2, ![512, 1000]⟩
abbrev S1x1000 : Shape := ⟨2, ![1, 1000]⟩
abbrev S1x1500 : Shape := ⟨2, ![1, 1500]⟩
abbrev S64x1000x1 : Shape := ⟨3, ![64, 1000, 1]⟩
abbrev S64x1500x1 : Shape := ⟨3, ![64, 1500, 1]⟩
abbrev S64x3000x1 : Shape := ⟨3, ![64, 3000, 1]⟩
abbrev S64x3000 : Shape := ⟨2, ![64, 3000]⟩

abbrev nBuf : Space → Nat
  | .hbm => 17
  | .vmem => 12
  | .smem => 0
  | _ => 0

abbrev bufTy : (tb : Table) → Fin (tcTables nBuf tb) → BufTy
  | .hbm, ⟨0, _⟩ => ⟨S64x1500x1000, .f32⟩
  | .hbm, ⟨1, _⟩ => ⟨S1500x512, .f32⟩
  | .hbm, ⟨2, _⟩ => ⟨S512, .f32⟩
  | .hbm, ⟨3, _⟩ => ⟨S512x1, .f32⟩
  | .hbm, ⟨4, _⟩ => ⟨S1, .f32⟩
  | .hbm, ⟨5, _⟩ => ⟨S1500x512, .bf16⟩
  | .hbm, ⟨6, _⟩ => ⟨S512x1, .bf16⟩
  | .hbm, ⟨7, _⟩ => ⟨S512x1, .f32⟩
  | .hbm, ⟨8, _⟩ => ⟨S1x1, .f32⟩
  | .hbm, ⟨9, _⟩ => ⟨S64x1x1000, .f32⟩
  | .hbm, ⟨10, _⟩ => ⟨S64x1x1500, .f32⟩
  | .hbm, ⟨11, _⟩ => ⟨S64x1x1500, .f32⟩
  | .hbm, ⟨12, _⟩ => ⟨S64x1000x1, .f32⟩
  | .hbm, ⟨13, _⟩ => ⟨S64x1500x1, .f32⟩
  | .hbm, ⟨14, _⟩ => ⟨S64x1500x1, .f32⟩
  | .hbm, ⟨15, _⟩ => ⟨S64x3000x1, .f32⟩
  | .hbm, ⟨16, _⟩ => ⟨S64x3000, .f32⟩
  | .local _ .vmem, ⟨0, _⟩ => ⟨S1x1500x1000, .f32⟩
  | .local _ .vmem, ⟨1, _⟩ => ⟨S1x1500x1000, .f32⟩
  | .local _ .vmem, ⟨2, _⟩ => ⟨S1500x512, .bf16⟩
  | .local _ .vmem, ⟨3, _⟩ => ⟨S512x1, .f32⟩
  | .local _ .vmem, ⟨4, _⟩ => ⟨S512x1, .bf16⟩
  | .local _ .vmem, ⟨5, _⟩ => ⟨S1x1, .f32⟩
  | .local _ .vmem, ⟨6, _⟩ => ⟨S1x1x1000, .f32⟩
  | .local _ .vmem, ⟨7, _⟩ => ⟨S1x1x1000, .f32⟩
  | .local _ .vmem, ⟨8, _⟩ => ⟨S1x1x1500, .f32⟩
  | .local _ .vmem, ⟨9, _⟩ => ⟨S1x1x1500, .f32⟩
  | .local _ .vmem, ⟨10, _⟩ => ⟨S1x1x1500, .f32⟩
  | .local _ .vmem, ⟨11, _⟩ => ⟨S1x1x1500, .f32⟩
  | _, _ => ⟨S64x1500x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1500x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1500x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1500 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1500 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S512_S512x1 : S512.ShapeCasts S512x1
  shapeCasts_S1_S1x1 : S1.ShapeCasts S1x1
  inb_S1x1500x1000_S1x1500x1000_0_0_0 : ∀ a, (![0, 0, 0] : Fin 3 → Nat) a + S1x1500x1000.size a ≤ S1x1500x1000.size a
  h_S1x1500x1000 : 0 < S1x1500x1000.numel
  shapeCasts_S1x1500x1000_S1500x1000 : S1x1500x1000.ShapeCasts S1500x1000
  inb_S1500x512_S1500x512_0_0 : ∀ a, (![0, 0] : Fin 2 → Nat) a + S1500x512.size a ≤ S1500x512.size a
  h_S1500x512 : 0 < S1500x512.numel
  shapeCasts_S1500x512_S1500x512 : S1500x512.ShapeCasts S1500x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1000 : S512x1.Broadcasts S512x1000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x1000 : S1x1.Broadcasts S1x1000
  reduces_S1x1000_S1 : S1x1000.Reduces [1] S1
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  shapeCasts_S1x1000_S1x1x1000 : S1x1000.ShapeCasts S1x1x1000
  inb_S1x1x1500_S1x1x1500_0_0_0 : ∀ a, (![0, 0, 0] : Fin 3 → Nat) a + S1x1x1500.size a ≤ S1x1x1500.size a
  h_S1x1x1500 : 0 < S1x1x1500.numel
  shapeCasts_S1x1x1500_S1x1500 : S1x1x1500.ShapeCasts S1x1500
  shapeCasts_S1x1500_S1x1x1500 : S1x1500.ShapeCasts S1x1x1500
  transposes_S64x1x1000_S64x1000x1_0_2_1 : S64x1x1000.Transposes [0, 2, 1] S64x1000x1
  transposes_S64x1x1500_S64x1500x1_0_2_1 : S64x1x1500.Transposes [0, 2, 1] S64x1500x1
  concatenates_S64x1500x1_S64x1500x1_S64x3000x1_d1 : Shape.Concatenates [S64x1500x1, S64x1500x1] S64x3000x1 1
  shapeCasts_S64x3000x1_S64x3000 : S64x3000x1.ShapeCasts S64x3000
  dot_S1500x512_S1500x1000_S512x1000_0_0_1_1_n_n_wf : DotDims.WF S1500x512 S1500x1000 S512x1000 [0] [0] [1] [1] [] []
  dot_S512x1_S512x1000_S1x1000_0_0_1_1_n_n_wf : DotDims.WF S512x1 S512x1000 S1x1000 [0] [0] [1] [1] [] []
  dot_S1x1000_S1500x1000_S1x1500_1_1_0_0_n_n_wf : DotDims.WF S1x1000 S1500x1000 S1x1500 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1500x1000.size a ≤ S64x1500x1000.size a
  hwx0_0 : ∀ i : grid0.Coords, EltTy.bits .f32 = 32 ∨ (Rect.block (s := S64x1500x1000) S1x1500x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1500x512.size a ≤ S1500x512.size a
  hwx0_1 : ∀ i : grid0.Coords, EltTy.bits .bf16 = 32 ∨ (Rect.block (s := S1500x512) S1500x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .bf16 = 32 ∨ (Rect.block (s := S512x1) S512x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1000.size a ≤ S64x1x1000.size a
  hwx0_5 : ∀ i : grid0.Coords, EltTy.bits .f32 = 32 ∨ (Rect.block (s := S64x1x1000) S1x1x1000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1500.size a ≤ S64x1x1500.size a
  hwx0_6 : ∀ i : grid0.Coords, EltTy.bits .f32 = 32 ∨ (Rect.block (s := S64x1x1500) S1x1x1500.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1500.size a ≤ S64x1x1500.size a
  hwx0_7 : ∀ i : grid0.Coords, EltTy.bits .f32 = 32 ∨ (Rect.block (s := S64x1x1500) S1x1x1500.size (cc0_transform_7 i) (hinb0_7 i)).WholeWords (EltTy.packing .f32)

variable [Facts₀]

def dot_S1500x512_S1500x1000_S512x1000_0_0_1_1_n_n : DotDims S1500x512 S1500x1000 S512x1000 where
  lhsContracting := [0]
  rhsContracting := [0]
  lhsNonContracting := [1]
  rhsNonContracting := [1]
  lhsBatch := []
  rhsBatch := []
  wf := dot_S1500x512_S1500x1000_S512x1000_0_0_1_1_n_n_wf
def dot_S512x1_S512x1000_S1x1000_0_0_1_1_n_n : DotDims S512x1 S512x1000 S1x1000 where
  lhsContracting := [0]
  rhsContracting := [0]
  lhsNonContracting := [1]
  rhsNonContracting := [1]
  lhsBatch := []
  rhsBatch := []
  wf := dot_S512x1_S512x1000_S1x1000_0_0_1_1_n_n_wf
def dot_S1x1000_S1500x1000_S1x1500_1_1_0_0_n_n : DotDims S1x1000 S1500x1000 S1x1500 where
  lhsContracting := [1]
  rhsContracting := [1]
  lhsNonContracting := [0]
  rhsNonContracting := [0]
  lhsBatch := []
  rhsBatch := []
  wf := dot_S1x1000_S1500x1000_S1x1500_1_1_0_0_n_n_wf

abbrev win0_0 : Pipeline.Window sig grid0 :=
  Pipeline.Window.ofSpec (Memref.whole main_arg0) S1x1500x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1500x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x1x1000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x1x1500.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S1x1x1500.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x1500x1000 : Shape := ⟨3, ![64, 1500, 1000]⟩
abbrev S1500x512 : Shape := ⟨2, ![1500, 512]⟩
abbrev S512 : Shape := ⟨1, ![512]⟩
abbrev S512x1 : Shape := ⟨2, ![512, 1]⟩
abbrev S1 : Shape := ⟨1, ![1]⟩
abbrev S64x1000x1500 : Shape := ⟨3, ![64, 1000, 1500]⟩
abbrev S64x1000x512 : Shape := ⟨3, ![64, 1000, 512]⟩
abbrev S1x1x512 : Shape := ⟨3, ![1, 1, 512]⟩
abbrev S_ : Shape := ⟨0, ![]⟩
abbrev S64x1000x1 : Shape := ⟨3, ![64, 1000, 1]⟩
abbrev S1x1x1 : Shape := ⟨3, ![1, 1, 1]⟩
abbrev S64x1 : Shape := ⟨2, ![64, 1]⟩
abbrev S64x1x1 : Shape := ⟨3, ![64, 1, 1]⟩
abbrev S64x1500x1 : Shape := ⟨3, ![64, 1500, 1]⟩
abbrev S64x3000x1 : Shape := ⟨3, ![64, 3000, 1]⟩
abbrev S64x3000 : Shape := ⟨2, ![64, 3000]⟩

abbrev nBuf : Space → Nat
  | .hbm => 45
  | .vmem => 0
  | .smem => 0
  | _ => 0

abbrev bufTy : (tb : Table) → Fin (tcTables nBuf tb) → BufTy
  | .hbm, ⟨0, _⟩ => ⟨S64x1500x1000, .f32⟩
  | .hbm, ⟨1, _⟩ => ⟨S1500x512, .f32⟩
  | .hbm, ⟨2, _⟩ => ⟨S512, .f32⟩
  | .hbm, ⟨3, _⟩ => ⟨S512x1, .f32⟩
  | .hbm, ⟨4, _⟩ => ⟨S1, .f32⟩
  | .hbm, ⟨5, _⟩ => ⟨S64x1000x1500, .f32⟩
  | .hbm, ⟨6, _⟩ => ⟨S64x1000x512, .f32⟩
  | .hbm, ⟨7, _⟩ => ⟨S1x1x512, .f32⟩
  | .hbm, ⟨8, _⟩ => ⟨S64x1000x512, .f32⟩
  | .hbm, ⟨9, _⟩ => ⟨S64x1000x512, .f32⟩
  | .hbm, ⟨10, _⟩ => ⟨S_, .f32⟩
  | .hbm, ⟨11, _⟩ => ⟨S64x1000x512, .f32⟩
  | .hbm, ⟨12, _⟩ => ⟨S64x1000x512, .f32⟩
  | .hbm, ⟨13, _⟩ => ⟨S64x1000x1, .f32⟩
  | .hbm, ⟨14, _⟩ => ⟨S1x1x1, .f32⟩
  | .hbm, ⟨15, _⟩ => ⟨S64x1000x1, .f32⟩
  | .hbm, ⟨16, _⟩ => ⟨S64x1000x1, .f32⟩
  | .hbm, ⟨17, _⟩ => ⟨S_, .f32⟩
  | .hbm, ⟨18, _⟩ => ⟨S64x1, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x1x1, .f32⟩
  | .hbm, ⟨23, _⟩ => ⟨S64x1000x1, .f32⟩
  | .hbm, ⟨24, _⟩ => ⟨S64x1000x1, .f32⟩
  | .hbm, ⟨25, _⟩ => ⟨S64x1000x1, .f32⟩
  | .hbm, ⟨26, _⟩ => ⟨S_, .f32⟩
  | .hbm, ⟨27, _⟩ => ⟨S64x1, .f32⟩
  | .hbm, ⟨28, _⟩ => ⟨S64x1x1, .f32⟩
  | .hbm, ⟨29, _⟩ => ⟨S64x1000x1, .f32⟩
  | .hbm, ⟨30, _⟩ => ⟨S64x1000x1, .f32⟩
  | .hbm, ⟨31, _⟩ => ⟨S64x1500x1, .f32⟩
  | .hbm, ⟨32, _⟩ => ⟨S64x1500x1000, .f32⟩
  | .hbm, ⟨33, _⟩ => ⟨S64x1500x1, .f32⟩
  | .hbm, ⟨34, _⟩ => ⟨S64x1500x1, .f32⟩
  | .hbm, ⟨35, _⟩ => ⟨S64x1500x1, .f32⟩
  | .hbm, ⟨36, _⟩ => ⟨S_, .f32⟩
  | .hbm, ⟨37, _⟩ => ⟨S64x1500x1, .f32⟩
  | .hbm, ⟨38, _⟩ => ⟨S64x1500x1, .f32⟩
  | .hbm, ⟨39, _⟩ => ⟨S_, .f32⟩
  | .hbm, ⟨40, _⟩ => ⟨S64x1500x1, .f32⟩
  | .hbm, ⟨41, _⟩ => ⟨S64x1500x1, .f32⟩
  | .hbm, ⟨42, _⟩ => ⟨S64x1500x1, .f32⟩
  | .hbm, ⟨43, _⟩ => ⟨S64x3000x1, .f32⟩
  | .hbm, ⟨44, _⟩ => ⟨S64x3000, .f32⟩
  | _, _ => ⟨S64x1500x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_cst : Ref sig .tc := ⟨.hbm, 36, rfl⟩
abbrev main_call1_v0 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  transposes_S64x1500x1000_S64x1000x1500_0_2_1 : S64x1500x1000.Transposes [0, 2, 1] S64x1000x1500
  bcast_S512_S1x1x512_2 : S512.BroadcastsInDim S1x1x512 (![2] : Fin 1 → Fin S1x1x512.rank)
  bcast_S1x1x512_S64x1000x512_0_1_2 : S1x1x512.BroadcastsInDim S64x1000x512 (![0, 1, 2] : Fin 3 → Fin S64x1000x512.rank)
  bcast_S_S64x1000x512 : S_.BroadcastsInDim S64x1000x512 (![] : Fin 0 → Fin S64x1000x512.rank)
  bcast_S1_S1x1x1_2 : S1.BroadcastsInDim S1x1x1 (![2] : Fin 1 → Fin S1x1x1.rank)
  bcast_S1x1x1_S64x1000x1_0_1_2 : S1x1x1.BroadcastsInDim S64x1000x1 (![0, 1, 2] : Fin 3 → Fin S64x1000x1.rank)
  reducesTo_S64x1000x1_S64x1_d1 : S64x1000x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x1000x1_0_1_2 : S64x1x1.BroadcastsInDim S64x1000x1 (![0, 1, 2] : Fin 3 → Fin S64x1000x1.rank)
  bcast_S_S64x1500x1 : S_.BroadcastsInDim S64x1500x1 (![] : Fin 0 → Fin S64x1500x1.rank)
  concatenates_S64x1500x1_S64x1500x1_S64x3000x1_d1 : Shape.Concatenates [S64x1500x1, S64x1500x1] S64x3000x1 1
  shapeCasts_S64x3000x1_S64x3000 : S64x3000x1.ShapeCasts S64x3000
  dot_S64x1000x1500_S1500x512_S64x1000x512_2_0_01_1_n_n_wf : DotDims.WF S64x1000x1500 S1500x512 S64x1000x512 [2] [0] [0, 1] [1] [] []
  dot_S64x1000x512_S512x1_S64x1000x1_2_0_01_1_n_n_wf : DotDims.WF S64x1000x512 S512x1 S64x1000x1 [2] [0] [0, 1] [1] [] []
  dot_S64x1500x1000_S64x1000x1_S64x1500x1_2_1_1_2_0_0_wf : DotDims.WF S64x1500x1000 S64x1000x1 S64x1500x1 [2] [1] [1] [2] [0] [0]

variable [Facts₀]

def dot_S64x1000x1500_S1500x512_S64x1000x512_2_0_01_1_n_n : DotDims S64x1000x1500 S1500x512 S64x1000x512 where
  lhsContracting := [2]
  rhsContracting := [0]
  lhsNonContracting := [0, 1]
  rhsNonContracting := [1]
  lhsBatch := []
  rhsBatch := []
  wf := dot_S64x1000x1500_S1500x512_S64x1000x512_2_0_01_1_n_n_wf
def dot_S64x1000x512_S512x1_S64x1000x1_2_0_01_1_n_n : DotDims S64x1000x512 S512x1 S64x1000x1 where
  lhsContracting := [2]
  rhsContracting := [0]
  lhsNonContracting := [0, 1]
  rhsNonContracting := [1]
  lhsBatch := []
  rhsBatch := []
  wf := dot_S64x1000x512_S512x1_S64x1000x1_2_0_01_1_n_n_wf
def dot_S64x1500x1000_S64x1000x1_S64x1500x1_2_1_1_2_0_0 : DotDims S64x1500x1000 S64x1000x1 S64x1500x1 where
  lhsContracting := [2]
  rhsContracting := [1]
  lhsNonContracting := [1]
  rhsNonContracting := [2]
  lhsBatch := [0]
  rhsBatch := [0]
  wf := dot_S64x1500x1000_S64x1000x1_S64x1500x1_2_1_1_2_0_0_wf

class Facts : Prop extends Facts₀ where

variable [Facts]
-- ==== Proof.Spec.lean ====
/-
  What both programs compute for ONE batch element, as functions on the extended reals.

  The data of a batch element is a slab `X d t` (feature `d`, time step `t`), the first layer's weights `W1 d a` and
  bias `B1 a`, the second layer's weight column `W2 a` and its one bias `B2`.
    hidden  a t = max (∑_d W1 d a · X d t + B1 a) 0
    score   t   = ∑_a W2 a · hidden a t + B2
    peak        = the maximum of the scores over the time steps, folded from −∞
    weight  t   = exp (score t − peak)
    attn    t   = weight t / ∑_s weight s                       (the softmax over time)
    mean    d   = ∑_t attn t · X d t
    meanSq  d   = ∑_t attn t · (X d t · X d t)
    spread  d   = sqrt (max (meanSq d − mean d · mean d) 0 + ε)
  The three float words that occur (zero, −∞ and ε, the f32 nearest to 1e-5) are kept as the words they are: both programs
  use the same ones, so their values are never needed.
-/
import Idealize.ShloMosaic.PureOps.Ideal
import Idealize.ShloMosaic.PureOps.Ideal.Laws
import Idealize.ShloMosaic.Lib.ValueIdx

noncomputable section

namespace Cert.AttnPool

open Idealize.ShloMosaic

/-- The f32 zero word, read on the extended reals. -/
abbrev zeroW : EReal := Ideal.ofBits .f32 0x00000000#32
/-- The f32 word of −∞. -/
abbrev negInfW : EReal := Ideal.ofBits .f32 0xFF800000#32
/-- The f32 word nearest to 1e-5, the floor added to the variance. -/
abbrev epsW : EReal := Ideal.ofBits .f32 0x3727C5AC#32

variable (X : Fin 1500 → Fin 1000 → EReal) (W1 : Fin 1500 → Fin 512 → EReal) (B1 : Fin 512 → EReal)
  (W2 : Fin 512 → EReal) (B2 : EReal)

/-- The hidden layer: an affine map of the slab's column at time `t`, clipped below at zero. -/
def hidden (a : Fin 512) (t : Fin 1000) : EReal := max ((∑ d : Fin 1500, W1 d a * X d t) + B1 a) zeroW

/-- The attention score of time step `t`. -/
def score (t : Fin 1000) : EReal := (∑ a : Fin 512, W2 a * hidden X W1 B1 a t) + B2

/-- The largest score, as a fold of `max` from −∞ over the time steps. -/
def peak : EReal := (Finset.univ : Finset (Fin 1000)).fold max negInfW (fun t => score X W1 B1 W2 B2 t)

/-- The unnormalised softmax weight of time step `t`. -/
def weight (t : Fin 1000) : EReal := Ideal.exp (score X W1 B1 W2 B2 t - peak X W1 B1 W2 B2)

/-- The softmax over time. -/
def attn (t : Fin 1000) : EReal := Ideal.div (weight X W1 B1 W2 B2 t) (∑ s : Fin 1000, weight X W1 B1 W2 B2 s)

/-- The attention-weighted mean of feature `d` over time. -/
def mean (d : Fin 1500) : EReal := ∑ t : Fin 1000, attn X W1 B1 W2 B2 t * X d t

/-- The attention-weighted mean of the square of feature `d`. -/
def meanSq (d : Fin 1500) : EReal := ∑ t : Fin 1000, attn X W1 B1 W2 B2 t * (X d t * X d t)

/-- The attention-weighted standard deviation of feature `d`, the variance clipped at zero and floored by ε. -/
def spread (d : Fin 1500) : EReal :=
  Ideal.sqrt (max (meanSq X W1 B1 W2 B2 d - mean X W1 B1 W2 B2 d * mean X W1 B1 W2 B2 d) zeroW + epsW)

/-- −∞ is neutral for `max`. -/
theorem max_negInfW (y : EReal) : max negInfW y = y := by
  show max (Ideal.ofBits .f32 0xFF800000#32) y = y
  simp [Ideal.ofBits, Ideal.ieee]

end Cert.AttnPool

end
-- ==== Proof.Arrays.lean ====
/-
  The argument arrays read as the per-batch data of the specification: batch `b`'s slab of the input, the first layer's
  weight matrix and bias, the second layer's weight column (its one column) and its one bias.
-/
import proofs.«104113_j39676907888369_2_alg».proof.Proof.Spec

noncomputable section

namespace Cert.AttnPool

open Idealize.ShloMosaic Idealize.ShloMosaic.ValueIdx

/-- Batch `b` of the input: feature `d` at time `t`. -/
def slab (x : (⟨3, ![64, 1500, 1000]⟩ : Shape).Idx → EReal) (b : Fin 64) : Fin 1500 → Fin 1000 → EReal :=
  fun d t => x (ix3 b d t)
/-- The first layer's weights. -/
def mat (x : (⟨2, ![1500, 512]⟩ : Shape).Idx → EReal) : Fin 1500 → Fin 512 → EReal := fun d a => x (ix2 d a)
/-- The first layer's bias. -/
def vec1 (x : (⟨1, ![512]⟩ : Shape).Idx → EReal) : Fin 512 → EReal := fun a => x (ix1 a)
/-- The second layer's one weight column. -/
def col (x : (⟨2, ![512, 1]⟩ : Shape).Idx → EReal) : Fin 512 → EReal := fun a => x (ix2 a 0)
/-- The second layer's one bias. -/
def one (x : (⟨1, ![1]⟩ : Shape).Idx → EReal) : EReal := x (ix1 0)

variable (x0 : (⟨3, ![64, 1500, 1000]⟩ : Shape).Idx → EReal) (x1 : (⟨2, ![1500, 512]⟩ : Shape).Idx → EReal)
  (x2 : (⟨1, ![512]⟩ : Shape).Idx → EReal) (x3 : (⟨2, ![512, 1]⟩ : Shape).Idx → EReal) (x4 : (⟨1, ![1]⟩ : Shape).Idx → EReal)

/-- The attention weights of every batch as one array [batch, time, 1]. -/
def attnArr : (⟨3, ![64, 1000, 1]⟩ : Shape).Idx → EReal :=
  fun i => attn (slab x0 (i 0)) (mat x1) (vec1 x2) (col x3) (one x4) (i 1)
/-- The weighted means as one array [batch, feature, 1]. -/
def meanArr : (⟨3, ![64, 1500, 1]⟩ : Shape).Idx → EReal :=
  fun i => mean (slab x0 (i 0)) (mat x1) (vec1 x2) (col x3) (one x4) (i 1)
/-- The weighted standard deviations as one array [batch, feature, 1]. -/
def spreadArr : (⟨3, ![64, 1500, 1]⟩ : Shape).Idx → EReal :=
  fun i => spread (slab x0 (i 0)) (mat x1) (vec1 x2) (col x3) (one x4) (i 1)

end Cert.AttnPool

end
-- ==== Proof.RefSide.lean ====
/-
  The reference program's three values, stage by stage, are the specification's: its softmax over time is `attn`, its
  two contractions with the input are `mean` and `meanSq`, and the square root of the floored variance is `spread`.
  The reference contracts with the input on the LEFT of each product where the specification has it on the right: the
  only algebra used is that the product of extended reals commutes, and that −∞ is neutral for `max`.
-/
import proofs.«104113_j39676907888369_2_alg».proof.Proof.RefRead
import proofs.«104113_j39676907888369_2_alg».proof.Proof.Arrays

noncomputable section

namespace Cert.AttnPool.Ref

open Cert.ReferenceIdeal Cert.ReferenceIdeal.ReadP Idealize.ShloMosaic Idealize.ShloMosaic.ValueIdx Cert.AttnPool

variable (x0 : (⟨S64x1500x1000, .f32⟩ : BufTy).Contents (Elt Ideal)) (x1 : (⟨S1500x512, .f32⟩ : BufTy).Contents (Elt Ideal))
  (x2 : (⟨S512, .f32⟩ : BufTy).Contents (Elt Ideal)) (x3 : (⟨S512x1, .f32⟩ : BufTy).Contents (Elt Ideal))
  (x4 : (⟨S1, .f32⟩ : BufTy).Contents (Elt Ideal))

/-- The reference's hidden layer at (batch, time, unit). -/
theorem hidden_eq (b : Fin 64) (t : Fin 1000) (a : Fin 512) :
    val_main_v5 (F := Ideal) x0 x1 x2 (ix3 b t a) = hidden (slab x0 b) (mat x1) (vec1 x2) a t := by
  have e0 : ∀ k : Fin 1500, idx_main_v0 (lidx_main_v1 (ix3 b t a) k) = ix3 b k t := fun k =>
    funext fun q => Fin.ext (by match q with | ⟨0, _⟩ => rfl | ⟨1, _⟩ => rfl | ⟨2, _⟩ => rfl)
  have e1 : ∀ k : Fin 1500, ridx_main_v1 (ix3 b t a) k = ix2 k a := fun k =>
    funext fun q => Fin.ext (by match q with | ⟨0, _⟩ => rfl | ⟨1, _⟩ => rfl)
  have e2 : idx_main_v2 (idx_main_v3 (ix3 b t a)) = ix1 a :=
    funext fun q => Fin.ext (by match q with | ⟨0, _⟩ => rfl)
  rw [val_main_v5_apply, val_main_v4_apply, val_main_v1_apply, val_main_v3_apply, val_main_v2_apply,
    val_main_call0_v0_apply, val_main_call0_cst_apply]
  simp only [val_main_v0_apply, e0, e1, e2]
  show max ((∑ k : Fin 1500, x0 (ix3 b k t) * x1 (ix2 k a)) + x2 (ix1 a)) zeroW = _
  unfold hidden slab mat vec1
  exact congrArg (fun s => max (s + x2 (ix1 a)) zeroW) (Finset.sum_congr rfl fun k _ => mul_comm _ _)

/-- The reference's attention score at (batch, time). -/
theorem score_eq (b : Fin 64) (t : Fin 1000) (u : Fin 1) :
    val_main_v9 (F := Ideal) x0 x1 x2 x3 x4 (ix3 b t u) = score (slab x0 b) (mat x1) (vec1 x2) (col x3) (one x4) t := by
  have hu : u = 0 := Subsingleton.elim _ _
  subst hu
  have e0 : ∀ k : Fin 512, lidx_main_v6 (ix3 b t (0 : Fin 1)) k = ix3 b t k := fun k =>
    funext fun q => Fin.ext (by match q with | ⟨0, _⟩ => rfl | ⟨1, _⟩ => rfl | ⟨2, _⟩ => rfl)
  have e1 : ∀ k : Fin 512, ridx_main_v6 (ix3 b t (0 : Fin 1)) k = ix2 k (0 : Fin 1) := fun k =>
    funext fun q => Fin.ext (by match q with | ⟨0, _⟩ => rfl | ⟨1, _⟩ => rfl)
  have e2 : idx_main_v7 (idx_main_v8 (ix3 b t (0 : Fin 1))) = ix1 (0 : Fin 1) :=
    funext fun q => Fin.ext (by match q with | ⟨0, _⟩ => rfl)
  rw [val_main_v9_apply, val_main_v6_apply, val_main_v8_apply, val_main_v7_apply]
  simp only [e0, e1, e2, hidden_eq]
  show (∑ k : Fin 512, hidden (slab x0 b) (mat x1) (vec1 x2) k t * x3 (ix2 k (0 : Fin 1))) + x4 (ix1 (0 : Fin 1)) = _
  unfold score col one
  exact congrArg (fun s => s + x4 (ix1 (0 : Fin 1))) (Finset.sum_congr rfl fun k _ => mul_comm _ _)

/-- The reference's row maximum of batch `b`: its reduce from −∞ over the time axis, then one more `max` with −∞. -/
theorem peak_eq (b : Fin 64) (u : Fin 1) :
    val_main_v12 (F := Ideal) x0 x1 x2 x3 x4 (ix2 b u) = peak (slab x0 b) (mat x1) (vec1 x2) (col x3) (one x4) := by
  have hu : u = 0 := Subsingleton.elim _ _
  subst hu
  have hred : S64x1000x1.Reduces [1] S64x1 := by decide
  have hl : ∀ k : Fin (S64x1000x1.size 1), hred.lift (ix2 b (0 : Fin 1)) k = ix3 b (⟨k.val, k.isLt⟩ : Fin 1000) (0 : Fin 1) := fun k => by
    funext c; apply Fin.ext; fin_cases c <;> rfl
  have hf : (val_main_v9 (F := Ideal) x0 x1 x2 x3 x4 ∘ hred.lift (ix2 b (0 : Fin 1)))
      = fun t : Fin 1000 => score (slab x0 b) (mat x1) (vec1 x2) (col x3) (one x4) t :=
    funext fun k => (congrArg (val_main_v9 (F := Ideal) x0 x1 x2 x3 x4) (hl k)).trans (score_eq x0 x1 x2 x3 x4 b _ 0)
  rw [val_main_v12_apply, val_main_v11_apply, val_main_cst_0_apply]
  unfold val_main_v10
  rw [Host.reduce_eq_fold_single FloatOps.maximumf _ _ Gen.reducesTo_S64x1000x1_S64x1_d1 hred Gen.h_S_]
  show max negInfW (Finset.fold max negInfW (val_main_v9 (F := Ideal) x0 x1 x2 x3 x4 ∘ hred.lift (ix2 b (0 : Fin 1)))
    (Finset.univ : Finset (Fin 1000))) = _
  rw [max_negInfW, hf]
  rfl

/-- The reference's unnormalised softmax weight. -/
theorem weight_eq (b : Fin 64) (t : Fin 1000) (u : Fin 1) :
    val_main_v16 (F := Ideal) x0 x1 x2 x3 x4 (ix3 b t u) = weight (slab x0 b) (mat x1) (vec1 x2) (col x3) (one x4) t := by
  have hu : u = 0 := Subsingleton.elim _ _
  subst hu
  have e : idx_main_v13 (idx_main_v14 (ix3 b t (0 : Fin 1))) = ix2 b (0 : Fin 1) :=
    funext fun q => Fin.ext (by match q with | ⟨0, _⟩ => rfl | ⟨1, _⟩ => rfl)
  rw [val_main_v16_apply, val_main_v15_apply, val_main_v14_apply, val_main_v13_apply, e, peak_eq, score_eq]
  rfl

/-- The reference's softmax over time: each weight over the row's sum of weights (the sum's initial value is zero). -/
theorem attn_eq (b : Fin 64) (t : Fin 1000) (u : Fin 1) :
    val_main_v20 (F := Ideal) x0 x1 x2 x3 x4 (ix3 b t u) = attn (slab x0 b) (mat x1) (vec1 x2) (col x3) (one x4) t := by
  have hu : u = 0 := Subsingleton.elim _ _
  subst hu
  have e : idx_main_v18 (idx_main_v19 (ix3 b t (0 : Fin 1))) = ix2 b (0 : Fin 1) :=
    funext fun q => Fin.ext (by match q with | ⟨0, _⟩ => rfl | ⟨1, _⟩ => rfl)
  have e17 : ∀ k : Fin 1000, idx_main_v17 (ix2 b (0 : Fin 1)) k = ix3 b k (0 : Fin 1) := fun k =>
    funext fun q => Fin.ext (by match q with | ⟨0, _⟩ => rfl | ⟨1, _⟩ => rfl | ⟨2, _⟩ => rfl)
  rw [val_main_v20_apply, val_main_v19_apply, val_main_v18_apply, e, val_main_v17_apply, weight_eq]
  simp only [e17, weight_eq]
  show Ideal.div (weight (slab x0 b) (mat x1) (vec1 x2) (col x3) (one x4) t)
    (Ideal.ofBits .f32 0x00000000#32 + ∑ k : Fin 1000, weight (slab x0 b) (mat x1) (vec1 x2) (col x3) (one x4) k) = _
  rw [Ideal.ofBits_zero_f32, zero_add]
  rfl

/-- The reference's weighted mean: the input on the left of each product. -/
theorem mean_eq (b : Fin 64) (d : Fin 1500) (u : Fin 1) :
    val_main_v21 (F := Ideal) x0 x1 x2 x3 x4 (ix3 b d u) = mean (slab x0 b) (mat x1) (vec1 x2) (col x3) (one x4) d := by
  have hu : u = 0 := Subsingleton.elim _ _
  subst hu
  have el : ∀ k : Fin 1000, lidx_main_v21 (ix3 b d (0 : Fin 1)) k = ix3 b d k := fun k =>
    funext fun q => Fin.ext (by match q with | ⟨0, _⟩ => rfl | ⟨1, _⟩ => rfl | ⟨2, _⟩ => rfl)
  have er : ∀ k : Fin 1000, ridx_main_v21 (ix3 b d (0 : Fin 1)) k = ix3 b k (0 : Fin 1) := fun k =>
    funext fun q => Fin.ext (by match q with | ⟨0, _⟩ => rfl | ⟨1, _⟩ => rfl | ⟨2, _⟩ => rfl)
  rw [val_main_v21_apply]
  simp only [el, er, attn_eq]
  unfold mean
  exact Finset.sum_congr rfl fun k _ => mul_comm _ _

/-- The reference's weighted mean of squares. -/
theorem meanSq_eq (b : Fin 64) (d : Fin 1500) (u : Fin 1) :
    val_main_v23 (F := Ideal) x0 x1 x2 x3 x4 (ix3 b d u) = meanSq (slab x0 b) (mat x1) (vec1 x2) (col x3) (one x4) d := by
  have hu : u = 0 := Subsingleton.elim _ _
  subst hu
  have el : ∀ k : Fin 1000, lidx_main_v23 (ix3 b d (0 : Fin 1)) k = ix3 b d k := fun k =>
    funext fun q => Fin.ext (by match q with | ⟨0, _⟩ => rfl | ⟨1, _⟩ => rfl | ⟨2, _⟩ => rfl)
  have er : ∀ k : Fin 1000, ridx_main_v23 (ix3 b d (0 : Fin 1)) k = ix3 b k (0 : Fin 1) := fun k =>
    funext fun q => Fin.ext (by match q with | ⟨0, _⟩ => rfl | ⟨1, _⟩ => rfl | ⟨2, _⟩ => rfl)
  rw [val_main_v23_apply]
  simp only [el, er, attn_eq, val_main_v22_apply]
  unfold meanSq
  exact Finset.sum_congr rfl fun k _ => mul_comm _ _

/-- The reference's weighted standard deviation. -/
theorem spread_eq (b : Fin 64) (d : Fin 1500) (u : Fin 1) :
    val_main_v29 (F := Ideal) x0 x1 x2 x3 x4 (ix3 b d u) = spread (slab x0 b) (mat x1) (vec1 x2) (col x3) (one x4) d := by
  rw [val_main_v29_apply, val_main_v28_apply, val_main_v27_apply, val_main_cst_2_apply, val_main_v26_apply,
    val_main_call1_v0_apply, val_main_call1_cst_apply, val_main_v25_apply, val_main_v24_apply, meanSq_eq, mean_eq]
  rfl

/-! ## The three arrays whole -/

theorem attnArr_eq : val_main_v20 (F := Ideal) x0 x1 x2 x3 x4 = attnArr x0 x1 x2 x3 x4 := funext fun i => by
  obtain ⟨b, t, u, rfl⟩ : ∃ (b : Fin 64) (t : Fin 1000) (u : Fin 1), i = ix3 b t u := ⟨i 0, i 1, i 2, eq_ix3 i⟩
  exact attn_eq x0 x1 x2 x3 x4 b t u

theorem meanArr_eq : val_main_v21 (F := Ideal) x0 x1 x2 x3 x4 = meanArr x0 x1 x2 x3 x4 := funext fun i => by
  obtain ⟨b, d, u, rfl⟩ : ∃ (b : Fin 64) (d : Fin 1500) (u : Fin 1), i = ix3 b d u := ⟨i 0, i 1, i 2, eq_ix3 i⟩
  exact mean_eq x0 x1 x2 x3 x4 b d u

theorem spreadArr_eq : val_main_v29 (F := Ideal) x0 x1 x2 x3 x4 = spreadArr x0 x1 x2 x3 x4 := funext fun i => by
  obtain ⟨b, d, u, rfl⟩ : ∃ (b : Fin 64) (d : Fin 1500) (u : Fin 1), i = ix3 b d u := ⟨i 0, i 1, i 2, eq_ix3 i⟩
  exact spread_eq x0 x1 x2 x3 x4 b d u

end Cert.AttnPool.Ref

end
-- ==== Proof.KerDots.lean ====
/-
  The kernel body's three matrix products into a zero accumulator, read at an output index as plain sums over the
  contracted axis: the first layer contracts the feature axis of the weights with the feature axis of the slab, the second
  layer contracts the hidden axis, and the pooling contracts the time axis of a row with the time axis of a matrix.
-/
import proofs.«104113_j39676907888369_2_alg».proof.Proof.Gen.KernelIdeal
import Idealize.ShloMosaic.Lib.ValueIdx
import Idealize.ShloMosaic.PureOps.Ideal.Laws

noncomputable section

namespace Cert.AttnPool.Ker

open Cert.KernelIdeal Idealize.ShloMosaic Idealize.ShloMosaic.ValueIdx

/-! ## First layer: [1500, 512] against [1500, 1000], over the 1500 features -/

theorem d1_lhs0 (i : S512x1000.Idx) (q : dot_S1500x512_S1500x1000_S512x1000_0_0_1_1_n_n.contr.Idx) :
    (dot_S1500x512_S1500x1000_S512x1000_0_0_1_1_n_n.lhsIdx i q 0).val = (q ⟨0, by decide⟩).val :=
  dot_S1500x512_S1500x1000_S512x1000_0_0_1_1_n_n.lhsIdx_val_of_single rfl i q
theorem d1_lhs1 (i : S512x1000.Idx) (q : dot_S1500x512_S1500x1000_S512x1000_0_0_1_1_n_n.contr.Idx) :
    (dot_S1500x512_S1500x1000_S512x1000_0_0_1_1_n_n.lhsIdx i q 1).val = (i 0).val := by
  unfold DotDims.lhsIdx
  rw [dif_neg (show ¬(1 : Fin S1500x512.rank) ∈ dot_S1500x512_S1500x1000_S512x1000_0_0_1_1_n_n.lhsBatch by decide),
    dif_pos (show (1 : Fin S1500x512.rank) ∈ dot_S1500x512_S1500x1000_S512x1000_0_0_1_1_n_n.lhsNonContracting by decide)]
  rfl
theorem d1_rhs0 (i : S512x1000.Idx) (q : dot_S1500x512_S1500x1000_S512x1000_0_0_1_1_n_n.contr.Idx) :
    (dot_S1500x512_S1500x1000_S512x1000_0_0_1_1_n_n.rhsIdx i q 0).val = (q ⟨0, by decide⟩).val :=
  dot_S1500x512_S1500x1000_S512x1000_0_0_1_1_n_n.rhsIdx_val_of_single rfl i q
theorem d1_rhs1 (i : S512x1000.Idx) (q : dot_S1500x512_S1500x1000_S512x1000_0_0_1_1_n_n.contr.Idx) :
    (dot_S1500x512_S1500x1000_S512x1000_0_0_1_1_n_n.rhsIdx i q 1).val = (i 1).val := by
  unfold DotDims.rhsIdx
  rw [dif_neg (show ¬(1 : Fin S1500x1000.rank) ∈ dot_S1500x512_S1500x1000_S512x1000_0_0_1_1_n_n.rhsBatch by decide),
    dif_pos (show (1 : Fin S1500x1000.rank) ∈ dot_S1500x512_S1500x1000_S512x1000_0_0_1_1_n_n.rhsNonContracting by decide)]
  rfl

/-- Entry (a, t) of the first product is the sum over the features `d` of weight (d, a) times slab entry (d, t). -/
theorem mm1_apply (L : FVec Ideal S1500x512 .bf16) (R : FVec Ideal S1500x1000 .bf16) (a : Fin 512) (t : Fin 1000) :
    matmul dot_S1500x512_S1500x1000_S512x1000_0_0_1_1_n_n none L R (constant S512x1000 .f32 0x00000000#32) (ix2 a t)
      = ∑ d : Fin 1500, L (ix2 d a) * R (ix2 d t) := by
  simp only [matmul]
  rw [Ideal.matmul_constant_zero_apply,
    ← Equiv.sum_comp (contrEquiv1 dot_S1500x512_S1500x1000_S512x1000_0_0_1_1_n_n 1500 rfl rfl).symm]
  refine Finset.sum_congr rfl fun k _ => ?_
  have hk := contrEquiv1_symm_val dot_S1500x512_S1500x1000_S512x1000_0_0_1_1_n_n 1500 rfl rfl k
  have el : dot_S1500x512_S1500x1000_S512x1000_0_0_1_1_n_n.lhsIdx (ix2 a t)
      ((contrEquiv1 dot_S1500x512_S1500x1000_S512x1000_0_0_1_1_n_n 1500 rfl rfl).symm k) = ix2 k a :=
    funext fun q => Fin.ext (by
      match q with
      | ⟨0, _⟩ => exact (d1_lhs0 _ _).trans hk
      | ⟨1, _⟩ => exact d1_lhs1 _ _)
  have er : dot_S1500x512_S1500x1000_S512x1000_0_0_1_1_n_n.rhsIdx (ix2 a t)
      ((contrEquiv1 dot_S1500x512_S1500x1000_S512x1000_0_0_1_1_n_n 1500 rfl rfl).symm k) = ix2 k t :=
    funext fun q => Fin.ext (by
      match q with
      | ⟨0, _⟩ => exact (d1_rhs0 _ _).trans hk
      | ⟨1, _⟩ => exact d1_rhs1 _ _)
  rw [el, er]

/-! ## Second layer: [512, 1] against [512, 1000], over the 512 hidden units -/

theorem d2_lhs0 (i : S1x1000.Idx) (q : dot_S512x1_S512x1000_S1x1000_0_0_1_1_n_n.contr.Idx) :
    (dot_S512x1_S512x1000_S1x1000_0_0_1_1_n_n.lhsIdx i q 0).val = (q ⟨0, by decide⟩).val :=
  dot_S512x1_S512x1000_S1x1000_0_0_1_1_n_n.lhsIdx_val_of_single rfl i q
theorem d2_lhs1 (i : S1x1000.Idx) (q : dot_S512x1_S512x1000_S1x1000_0_0_1_1_n_n.contr.Idx) :
    (dot_S512x1_S512x1000_S1x1000_0_0_1_1_n_n.lhsIdx i q 1).val = (i 0).val := by
  unfold DotDims.lhsIdx
  rw [dif_neg (show ¬(1 : Fin S512x1.rank) ∈ dot_S512x1_S512x1000_S1x1000_0_0_1_1_n_n.lhsBatch by decide),
    dif_pos (show (1 : Fin S512x1.rank) ∈ dot_S512x1_S512x1000_S1x1000_0_0_1_1_n_n.lhsNonContracting by decide)]
  rfl
theorem d2_rhs0 (i : S1x1000.Idx) (q : dot_S512x1_S512x1000_S1x1000_0_0_1_1_n_n.contr.Idx) :
    (dot_S512x1_S512x1000_S1x1000_0_0_1_1_n_n.rhsIdx i q 0).val = (q ⟨0, by decide⟩).val :=
  dot_S512x1_S512x1000_S1x1000_0_0_1_1_n_n.rhsIdx_val_of_single rfl i q
theorem d2_rhs1 (i : S1x1000.Idx) (q : dot_S512x1_S512x1000_S1x1000_0_0_1_1_n_n.contr.Idx) :
    (dot_S512x1_S512x1000_S1x1000_0_0_1_1_n_n.rhsIdx i q 1).val = (i 1).val := by
  unfold DotDims.rhsIdx
  rw [dif_neg (show ¬(1 : Fin S512x1000.rank) ∈ dot_S512x1_S512x1000_S1x1000_0_0_1_1_n_n.rhsBatch by decide),
    dif_pos (show (1 : Fin S512x1000.rank) ∈ dot_S512x1_S512x1000_S1x1000_0_0_1_1_n_n.rhsNonContracting by decide)]
  rfl

/-- Entry (0, t) of the second product is the sum over the hidden units `a` of weight (a, 0) times hidden entry (a, t). -/
theorem mm2_apply (L : FVec Ideal S512x1 .bf16) (R : FVec Ideal S512x1000 .bf16) (u : Fin 1) (t : Fin 1000) :
    matmul dot_S512x1_S512x1000_S1x1000_0_0_1_1_n_n none L R (constant S1x1000 .f32 0x00000000#32) (ix2 u t)
      = ∑ a : Fin 512, L (ix2 a u) * R (ix2 a t) := by
  simp only [matmul]
  rw [Ideal.matmul_constant_zero_apply,
    ← Equiv.sum_comp (contrEquiv1 dot_S512x1_S512x1000_S1x1000_0_0_1_1_n_n 512 rfl rfl).symm]
  refine Finset.sum_congr rfl fun k _ => ?_
  have hk := contrEquiv1_symm_val dot_S512x1_S512x1000_S1x1000_0_0_1_1_n_n 512 rfl rfl k
  have el : dot_S512x1_S512x1000_S1x1000_0_0_1_1_n_n.lhsIdx (ix2 u t)
      ((contrEquiv1 dot_S512x1_S512x1000_S1x1000_0_0_1_1_n_n 512 rfl rfl).symm k) = ix2 k u :=
    funext fun q => Fin.ext (by
      match q with
      | ⟨0, _⟩ => exact (d2_lhs0 _ _).trans hk
      | ⟨1, _⟩ => exact d2_lhs1 _ _)
  have er : dot_S512x1_S512x1000_S1x1000_0_0_1_1_n_n.rhsIdx (ix2 u t)
      ((contrEquiv1 dot_S512x1_S512x1000_S1x1000_0_0_1_1_n_n 512 rfl rfl).symm k) = ix2 k t :=
    funext fun q => Fin.ext (by
      match q with
      | ⟨0, _⟩ => exact (d2_rhs0 _ _).trans hk
      | ⟨1, _⟩ => exact d2_rhs1 _ _)
  rw [el, er]

/-! ## Pooling: [1, 1000] against [1500, 1000], over the 1000 time steps -/

theorem d3_lhs0 (i : S1x1500.Idx) (q : dot_S1x1000_S1500x1000_S1x1500_1_1_0_0_n_n.contr.Idx) :
    (dot_S1x1000_S1500x1000_S1x1500_1_1_0_0_n_n.lhsIdx i q 0).val = (i 0).val := by
  unfold DotDims.lhsIdx
  rw [dif_neg (show ¬(0 : Fin S1x1000.rank) ∈ dot_S1x1000_S1500x1000_S1x1500_1_1_0_0_n_n.lhsBatch by decide),
    dif_pos (show (0 : Fin S1x1000.rank) ∈ dot_S1x1000_S1500x1000_S1x1500_1_1_0_0_n_n.lhsNonContracting by decide)]
  rfl
theorem d3_lhs1 (i : S1x1500.Idx) (q : dot_S1x1000_S1500x1000_S1x1500_1_1_0_0_n_n.contr.Idx) :
    (dot_S1x1000_S1500x1000_S1x1500_1_1_0_0_n_n.lhsIdx i q 1).val = (q ⟨0, by decide⟩).val :=
  dot_S1x1000_S1500x1000_S1x1500_1_1_0_0_n_n.lhsIdx_val_of_single rfl i q
theorem d3_rhs0 (i : S1x1500.Idx) (q : dot_S1x1000_S1500x1000_S1x1500_1_1_0_0_n_n.contr.Idx) :
    (dot_S1x1000_S1500x1000_S1x1500_1_1_0_0_n_n.rhsIdx i q 0).val = (i 1).val := by
  unfold DotDims.rhsIdx
  rw [dif_neg (show ¬(0 : Fin S1500x1000.rank) ∈ dot_S1x1000_S1500x1000_S1x1500_1_1_0_0_n_n.rhsBatch by decide),
    dif_pos (show (0 : Fin S1500x1000.rank) ∈ dot_S1x1000_S1500x1000_S1x1500_1_1_0_0_n_n.rhsNonContracting by decide)]
  rfl
theorem d3_rhs1 (i : S1x1500.Idx) (q : dot_S1x1000_S1500x1000_S1x1500_1_1_0_0_n_n.contr.Idx) :
    (dot_S1x1000_S1500x1000_S1x1500_1_1_0_0_n_n.rhsIdx i q 1).val = (q ⟨0, by decide⟩).val :=
  dot_S1x1000_S1500x1000_S1x1500_1_1_0_0_n_n.rhsIdx_val_of_single rfl i q

/-- Entry (0, d) of a pooling product is the sum over the time steps `t` of row entry (0, t) times matrix entry (d, t). -/
theorem mm3_apply (L : FVec Ideal S1x1000 .bf16) (R : FVec Ideal S1500x1000 .bf16) (u : Fin 1) (d : Fin 1500) :
    matmul dot_S1x1000_S1500x1000_S1x1500_1_1_0_0_n_n none L R (constant S1x1500 .f32 0x00000000#32) (ix2 u d)
      = ∑ t : Fin 1000, L (ix2 u t) * R (ix2 d t) := by
  simp only [matmul]
  rw [Ideal.matmul_constant_zero_apply,
    ← Equiv.sum_comp (contrEquiv1 dot_S1x1000_S1500x1000_S1x1500_1_1_0_0_n_n 1000 rfl rfl).symm]
  refine Finset.sum_congr rfl fun k _ => ?_
  have hk := contrEquiv1_symm_val dot_S1x1000_S1500x1000_S1x1500_1_1_0_0_n_n 1000 rfl rfl k
  have el : dot_S1x1000_S1500x1000_S1x1500_1_1_0_0_n_n.lhsIdx (ix2 u d)
      ((contrEquiv1 dot_S1x1000_S1500x1000_S1x1500_1_1_0_0_n_n 1000 rfl rfl).symm k) = ix2 u k :=
    funext fun q => Fin.ext (by
      match q with
      | ⟨0, _⟩ => exact d3_lhs0 _ _
      | ⟨1, _⟩ => exact (d3_lhs1 _ _).trans hk)
  have er : dot_S1x1000_S1500x1000_S1x1500_1_1_0_0_n_n.rhsIdx (ix2 u d)
      ((contrEquiv1 dot_S1x1000_S1500x1000_S1x1500_1_1_0_0_n_n 1000 rfl rfl).symm k) = ix2 d k :=
    funext fun q => Fin.ext (by
      match q with
      | ⟨0, _⟩ => exact d3_rhs0 _ _
      | ⟨1, _⟩ => exact (d3_rhs1 _ _).trans hk)
  rw [el, er]

end Cert.AttnPool.Ker

end
-- ==== Proof.KerBody.lean ====
/-
  The kernel body's arithmetic on ONE grid point's blocks, read index by index, is the specification on that batch
  element. The block of the input is the slab [1, 1500, 1000]; the weights arrive whole ([1500, 512], [512, 1] as a
  column, [512, 1], [1, 1]). The body's value is cut into four stages — the hidden layer, the scores, the softmax of a row,
  and a pooling product — each a function of vectors read here at an index; the printed payloads are their compositions.
  A change of float format is the identity on the extended reals, so the roundings to bf16 in front of each product vanish.
-/
import proofs.«104113_j39676907888369_2_alg».proof.Proof.Gen.KernelIdeal.Skeleton
import proofs.«104113_j39676907888369_2_alg».proof.Proof.KerDots
import proofs.«104113_j39676907888369_2_alg».proof.Proof.Arrays
import Idealize.ShloMosaic.Lib.Pipeline.Value

noncomputable section

namespace Cert.AttnPool.Ker

open Cert.KernelIdeal Cert.KernelIdeal.Gen Idealize.ShloMosaic Idealize.ShloMosaic.ValueIdx Cert.AttnPool

/-! ## Layout steps of the body, read at an index -/

/-- The slab block [1, 1500, 1000] viewed as a matrix [1500, 1000]. -/
theorem slabMat_apply (x0 : Vec Ideal S1x1500x1000 .f32) (d : Fin 1500) (t : Fin 1000) :
    k0_pay3 (F := Ideal) x0 (ix2 d t) = x0 (ix3 (0 : Fin 1) d t) := by
  unfold k0_pay3
  exact shapeCast_apply x0 _ (ix2 d t) (ix3 (0 : Fin 1) d t) (by
    rw [Shape.rowMajor_val_three, Shape.rowMajor_val_two]
    show ((0 : Nat) * 1500 + d.val) * 1000 + t.val = d.val * 1000 + t.val
    omega)

/-- A column [512, 1] broadcast along the time axis. -/
theorem bcastCol_apply (v : FVec Ideal S512x1 .f32) (a : Fin 512) (t : Fin 1000) :
    broadcastTo S512x1000 v broadcasts_S512x1_S512x1000 (ix2 a t) = v (ix2 a (0 : Fin 1)) :=
  broadcastTo_apply v _ (ix2 a t) (ix2 a (0 : Fin 1)) (fun q => by
    match q with
    | ⟨0, _⟩ => show a.val = if (512 : Nat) = 1 then 0 else a.val; rw [if_neg (by decide)]
    | ⟨1, _⟩ => show (0 : Nat) = if (1 : Nat) = 1 then 0 else t.val; rw [if_pos rfl])

/-- A single entry [1, 1] broadcast along the time axis. -/
theorem bcastOne_apply (v : FVec Ideal S1x1 .f32) (u : Fin 1) (t : Fin 1000) :
    broadcastTo S1x1000 v broadcasts_S1x1_S1x1000 (ix2 u t) = v (ix2 (0 : Fin 1) (0 : Fin 1)) :=
  broadcastTo_apply v _ (ix2 u t) (ix2 (0 : Fin 1) (0 : Fin 1)) (fun q => by
    match q with
    | ⟨0, _⟩ => show (0 : Nat) = if (1 : Nat) = 1 then 0 else u.val; rw [if_pos rfl]
    | ⟨1, _⟩ => show (0 : Nat) = if (1 : Nat) = 1 then 0 else t.val; rw [if_pos rfl])

/-- A one-element vector [1] viewed as [1, 1]. -/
theorem castOne_apply (v : FVec Ideal S1 .f32) :
    shapeCast S1x1 v shapeCasts_S1_S1x1 (ix2 (0 : Fin 1) (0 : Fin 1)) = v (ix1 (0 : Fin 1)) :=
  shapeCast_apply v _ _ _ (by
    rw [Shape.rowMajor_val_one, Shape.rowMajor_val_two]
    show (0 : Nat) = (0 : Nat) * 1 + 0
    omega)

/-- A row [1, 1000] stored as a block [1, 1, 1000]. -/
theorem castRow1000_apply (v : FVec Ideal S1x1000 .f32) (t : Fin 1000) :
    shapeCast S1x1x1000 v shapeCasts_S1x1000_S1x1x1000 (ix3 (0 : Fin 1) (0 : Fin 1) t) = v (ix2 (0 : Fin 1) t) :=
  shapeCast_apply v _ _ _ (by
    rw [Shape.rowMajor_val_two, Shape.rowMajor_val_three]
    show (0 : Nat) * 1000 + t.val = ((0 : Nat) * 1 + 0) * 1000 + t.val
    omega)

/-- A row [1, 1500] stored as a block [1, 1, 1500]. -/
theorem castRow1500_apply (v : FVec Ideal S1x1500 .f32) (d : Fin 1500) :
    shapeCast S1x1x1500 v shapeCasts_S1x1500_S1x1x1500 (ix3 (0 : Fin 1) (0 : Fin 1) d) = v (ix2 (0 : Fin 1) d) :=
  shapeCast_apply v _ _ _ (by
    rw [Shape.rowMajor_val_two, Shape.rowMajor_val_three]
    show (0 : Nat) * 1500 + d.val = ((0 : Nat) * 1 + 0) * 1500 + d.val
    omega)

/-- Row 0 with time step `k` put back on the reduced axis is (0, k). -/
theorem lift_row (k : Fin (S1x1000.size 1)) :
    reduces_S1x1000_S1.lift (ix1 (0 : Fin 1)) k = ix2 (0 : Fin 1) (⟨k.val, k.isLt⟩ : Fin 1000) := by
  funext c; apply Fin.ext; fin_cases c <;> rfl

/-! ## The softmax of one row -/

/-- The row's maximum, reduced from −∞ over the time axis. -/
def rowPeak (s : FVec Ideal S1x1000 .f32) : FVec Ideal S1 .f32 :=
  multiReduction .maximumf [1] S1 s 0xFF800000#32 reduces_S1x1000_S1 (.inl rfl) rfl

/-- The exponentials of the row's entries less its maximum. -/
def rowExp (s : FVec Ideal S1x1000 .f32) : FVec Ideal S1x1000 .f32 :=
  exp (subf s (broadcastTo S1x1000 (shapeCast S1x1 (rowPeak s) shapeCasts_S1_S1x1) broadcasts_S1x1_S1x1000))

/-- The softmax of the row: each exponential over their sum along the time axis. -/
def softRow (s : FVec Ideal S1x1000 .f32) : FVec Ideal S1x1000 .f32 :=
  divf (rowExp s) (broadcastTo S1x1000 (shapeCast S1x1
    (multiReduction .add [1] S1 (rowExp s) 0x00000000#32 reduces_S1x1000_S1 (.inl rfl) rfl) shapeCasts_S1_S1x1) broadcasts_S1x1_S1x1000)

theorem rowPeak_apply (s : FVec Ideal S1x1000 .f32) :
    rowPeak s (ix1 (0 : Fin 1)) = (Finset.univ : Finset (Fin 1000)).fold max negInfW (fun t => s (ix2 (0 : Fin 1) t)) := by
  have hf : (s ∘ reduces_S1x1000_S1.lift (ix1 (0 : Fin 1))) = fun t : Fin 1000 => s (ix2 (0 : Fin 1) t) :=
    funext fun k => congrArg s (lift_row k)
  unfold rowPeak
  refine (Ideal.multiReduction_maximumf_single s 0xFF800000#32 reduces_S1x1000_S1 (.inl rfl) rfl (ix1 (0 : Fin 1))).trans ?_
  exact congrArg (fun f => Finset.fold max negInfW f (Finset.univ : Finset (Fin 1000))) hf

theorem rowExp_apply (s : FVec Ideal S1x1000 .f32) (t : Fin 1000) :
    rowExp s (ix2 (0 : Fin 1) t)
      = Ideal.exp (s (ix2 (0 : Fin 1) t) - (Finset.univ : Finset (Fin 1000)).fold max negInfW (fun k => s (ix2 (0 : Fin 1) k))) := by
  unfold rowExp
  show Ideal.exp (s (ix2 (0 : Fin 1) t)
    - broadcastTo S1x1000 (shapeCast S1x1 (rowPeak s) shapeCasts_S1_S1x1) broadcasts_S1x1_S1x1000 (ix2 (0 : Fin 1) t)) = _
  rw [bcastOne_apply, castOne_apply, rowPeak_apply]

theorem softRow_apply (s : FVec Ideal S1x1000 .f32) (t : Fin 1000) :
    softRow s (ix2 (0 : Fin 1) t) = Ideal.div (rowExp s (ix2 (0 : Fin 1) t)) (∑ k : Fin 1000, rowExp s (ix2 (0 : Fin 1) k)) := by
  unfold softRow
  rw [divf_apply, bcastOne_apply, castOne_apply]
  refine congrArg (Ideal.div _) ?_
  refine (Ideal.multiReduction_add_single (rowExp s) 0x00000000#32 reduces_S1x1000_S1 (.inl rfl) rfl (ix1 (0 : Fin 1))).trans ?_
  exact Finset.sum_congr rfl fun k _ => congrArg (rowExp s) (lift_row k)

/-! ## The body's stages on one grid point's blocks -/

section Blocks

variable (x0 : Vec Ideal S1x1500x1000 .f32) (x1 : Vec Ideal S1500x512 .bf16) (x2 : Vec Ideal S512x1 .f32)
  (x3 : Vec Ideal S512x1 .bf16) (x4 : Vec Ideal S1x1 .f32)

/-- The slab block as the specification's slab: feature `d` at time `t`. -/
def bX : Fin 1500 → Fin 1000 → EReal := fun d t => x0 (ix3 (0 : Fin 1) d t)
/-- The first layer's weight block. -/
def bW1 : Fin 1500 → Fin 512 → EReal := fun d a => x1 (ix2 d a)
/-- The first layer's bias block, a column. -/
def bB1 : Fin 512 → EReal := fun a => x2 (ix2 a (0 : Fin 1))
/-- The second layer's weight block, a column. -/
def bW2 : Fin 512 → EReal := fun a => x3 (ix2 a (0 : Fin 1))
/-- The second layer's bias block, one entry. -/
def bB2 : EReal := x4 (ix2 (0 : Fin 1) (0 : Fin 1))

/-- The slab rounded for the products is the slab. -/
theorem slabBf_apply (d : Fin 1500) (t : Fin 1000) : k0_pay4 (F := Ideal) x0 (ix2 d t) = x0 (ix3 (0 : Fin 1) d t) :=
  slabMat_apply x0 d t

/-- The hidden layer as the body computes it: unit `a` down the rows, time along the lanes. -/
def hidV : FVec Ideal S512x1000 .f32 :=
  maximumf (addf (matmul dot_S1500x512_S1500x1000_S512x1000_0_0_1_1_n_n none
        (shapeCast S1500x512 x1 shapeCasts_S1500x512_S1500x512 : FVec Ideal S1500x512 .bf16) (k0_pay4 (F := Ideal) x0)
        (constant S512x1000 .f32 0x00000000#32))
      (broadcastTo S512x1000 (shapeCast S512x1 x2 shapeCasts_S512x1_S512x1 : FVec Ideal S512x1 .f32) broadcasts_S512x1_S512x1000))
    (broadcast S512x1000 (Scalar.ofBits (F := Ideal) .f32 0x00000000#32))

theorem hidV_apply (a : Fin 512) (t : Fin 1000) :
    hidV x0 x1 x2 (ix2 a t) = hidden (bX x0) (bW1 x1) (bB1 x2) a t := by
  unfold hidV
  rw [maximumf_apply, addf_apply, mm1_apply, bcastCol_apply, shapeCast_self, shapeCast_self]
  simp only [slabBf_apply]
  rfl

/-- The row of scores as the body computes it. -/
def scoV : FVec Ideal S1x1000 .f32 :=
  addf (matmul dot_S512x1_S512x1000_S1x1000_0_0_1_1_n_n none
      (shapeCast S512x1 x3 shapeCasts_S512x1_S512x1 : FVec Ideal S512x1 .bf16) (truncf .bf16 (hidV x0 x1 x2) bitsLt_bf16_f32)
      (constant S1x1000 .f32 0x00000000#32))
    (broadcastTo S1x1000 (shapeCast S1x1 x4 shapeCasts_S1x1_S1x1 : FVec Ideal S1x1 .f32) broadcasts_S1x1_S1x1000)

theorem scoV_apply (u : Fin 1) (t : Fin 1000) :
    scoV x0 x1 x2 x3 x4 (ix2 u t) = score (bX x0) (bW1 x1) (bB1 x2) (bW2 x3) (bB2 x4) t := by
  have hu : u = 0 := Subsingleton.elim _ _
  subst hu
  unfold scoV
  rw [addf_apply, mm2_apply, bcastOne_apply, shapeCast_self, shapeCast_self]
  simp only [truncf_apply, hidV_apply]
  rfl

/-- The printed softmax payload is the softmax of the row of scores. -/
theorem pay5_eq : k0_pay5 (F := Ideal) x0 x1 x2 x3 x4 = softRow (scoV x0 x1 x2 x3 x4) := rfl

/-- The attention weights of the block. -/
theorem attnBlk (t : Fin 1000) :
    k0_pay5 (F := Ideal) x0 x1 x2 x3 x4 (ix2 (0 : Fin 1) t) = attn (bX x0) (bW1 x1) (bB1 x2) (bW2 x3) (bB2 x4) t := by
  rw [pay5_eq, softRow_apply]
  simp only [rowExp_apply, scoV_apply]
  rfl

/-- A pooling product: a row of weights against a matrix [1500, 1000], over time. -/
def poolV (A : FVec Ideal S1x1000 .f32) (Y : FVec Ideal S1500x1000 .f32) : FVec Ideal S1x1500 .f32 :=
  matmul dot_S1x1000_S1500x1000_S1x1500_1_1_0_0_n_n none (truncf .bf16 A bitsLt_bf16_f32) (truncf .bf16 Y bitsLt_bf16_f32)
    (constant S1x1500 .f32 0x00000000#32)

theorem poolV_apply (A : FVec Ideal S1x1000 .f32) (Y : FVec Ideal S1500x1000 .f32) (u : Fin 1) (d : Fin 1500) :
    poolV A Y (ix2 u d) = ∑ t : Fin 1000, A (ix2 u t) * Y (ix2 d t) :=
  mm3_apply _ _ u d

theorem pay8_eq : k0_pay8 (F := Ideal) x0 x1 x2 x3 x4 = poolV (k0_pay5 (F := Ideal) x0 x1 x2 x3 x4) (k0_pay3 (F := Ideal) x0) := rfl
theorem pay9_eq : k0_pay9 (F := Ideal) x0 x1 x2 x3 x4
    = poolV (k0_pay5 (F := Ideal) x0 x1 x2 x3 x4) (mulf (k0_pay3 (F := Ideal) x0) (k0_pay3 (F := Ideal) x0)) := rfl

/-- The weighted means of the block. -/
theorem meanBlk (d : Fin 1500) :
    k0_pay8 (F := Ideal) x0 x1 x2 x3 x4 (ix2 (0 : Fin 1) d) = mean (bX x0) (bW1 x1) (bB1 x2) (bW2 x3) (bB2 x4) d := by
  rw [pay8_eq, poolV_apply]
  simp only [attnBlk, slabMat_apply]
  rfl

/-- The weighted means of squares of the block. -/
theorem meanSqBlk (d : Fin 1500) :
    k0_pay9 (F := Ideal) x0 x1 x2 x3 x4 (ix2 (0 : Fin 1) d) = meanSq (bX x0) (bW1 x1) (bB1 x2) (bW2 x3) (bB2 x4) d := by
  rw [pay9_eq, poolV_apply]
  simp only [mulf_apply, attnBlk, slabMat_apply]
  rfl

/-- The deviation row from the two pooled rows: pointwise. -/
def devV (E Q : FVec Ideal S1x1500 .f32) : FVec Ideal S1x1500 .f32 :=
  sqrt (addf (maximumf (subf Q (mulf E E)) (broadcast S1x1500 (Scalar.ofBits (F := Ideal) .f32 0x00000000#32)))
    (broadcast S1x1500 (Scalar.ofBits (F := Ideal) .f32 0x3727C5AC#32)))

theorem pay2_eq (E Q : FVec Ideal S1x1500 .f32) :
    k0_pay2 (F := Ideal) E Q = shapeCast S1x1x1500 (devV E Q) shapeCasts_S1x1500_S1x1x1500 := rfl

theorem devV_apply (E Q : FVec Ideal S1x1500 .f32) (j : S1x1500.Idx) :
    devV E Q j = Ideal.sqrt (max (Q j - E j * E j) zeroW + epsW) := rfl

/-! ## The three stored blocks -/

/-- The block stored to the attention output. -/
theorem out5Blk (t : Fin 1000) :
    k0_pay6 (F := Ideal) x0 x1 x2 x3 x4 (ix3 (0 : Fin 1) (0 : Fin 1) t) = attn (bX x0) (bW1 x1) (bB1 x2) (bW2 x3) (bB2 x4) t :=
  (castRow1000_apply (k0_pay5 (F := Ideal) x0 x1 x2 x3 x4) t).trans (attnBlk x0 x1 x2 x3 x4 t)

/-- The block stored to the mean output. -/
theorem out6Blk (d : Fin 1500) :
    k0_pay1 (F := Ideal) (k0_pay8 (F := Ideal) x0 x1 x2 x3 x4) (ix3 (0 : Fin 1) (0 : Fin 1) d)
      = mean (bX x0) (bW1 x1) (bB1 x2) (bW2 x3) (bB2 x4) d :=
  (castRow1500_apply (k0_pay8 (F := Ideal) x0 x1 x2 x3 x4) d).trans (meanBlk x0 x1 x2 x3 x4 d)

/-- The block stored to the deviation output. -/
theorem out7Blk (d : Fin 1500) :
    k0_pay2 (F := Ideal) (k0_pay8 (F := Ideal) x0 x1 x2 x3 x4) (k0_pay9 (F := Ideal) x0 x1 x2 x3 x4) (ix3 (0 : Fin 1) (0 : Fin 1) d)
      = spread (bX x0) (bW1 x1) (bB1 x2) (bW2 x3) (bB2 x4) d := by
  rw [pay2_eq, castRow1500_apply, devV_apply, meanBlk, meanSqBlk]
  rfl

end Blocks

end Cert.AttnPool.Ker

end
-- ==== Proof.KerBlocks.lean ====
/-
  From one grid point to the whole arrays. Grid point `t` (one per batch element) stages batch `t`'s slab of the input and
  the four weight and bias arrays whole, and writes back row `t` of each of the three outputs. Before the region the host
  rounds the two weight arrays (the identity on the extended reals) and re-views the two biases as [512, 1] and [1, 1].
  So the blocks at point `t` are the specification's data of batch `t`, each output's row `t` is the specification at batch `t`,
  the 64 rows cover each output, and each output array ends as one function of the argument arrays.
-/
import proofs.«104113_j39676907888369_2_alg».proof.Proof.Gen.KernelIdeal.Frame
import proofs.«104113_j39676907888369_2_alg».proof.Proof.KerBody

noncomputable section

namespace Cert.AttnPool.Ker

open Cert.KernelIdeal Cert.KernelIdeal.Gen Idealize.ShloMosaic Idealize.ShloMosaic.TcCoe Idealize.ShloMosaic.ValueIdx
open Idealize.SL.Sem Cert.AttnPool
open Idealize.ShloMosaic.Pipeline (Dat)

variable (m : (ℓ : Loc nD τ sig) → Buf (Elt Ideal) ℓ)

/-! ## The index maps, decided over the 64 grid points -/

/-- The input's block index is the batch; the four weight and bias windows stay at block zero. -/
theorem idx_in : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Each output's block index is the batch. -/
theorem idx_out : ∀ t : Fin cfg0.N,
    win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The batch element a grid point works on. -/
def bat (t : Fin cfg0.N) : Fin 64 := ⟨t.val, lt_of_lt_of_eq t.isLt N_0⟩

/-! ## The arrays as the region finds them -/

/-- The first layer's weights, rounded by the host before the region: unchanged on the extended reals. -/
theorem V_v0 (c : Dev nD) :
    (V m c main_v0 : S1500x512.Idx → EReal) = fun i => m ((c : Thread nD τ).loc main_arg1) i := by
  show StableHlo.after hostOps0 (fun b => m (c, b)) (Proc.devRef .tc main_v0) = _
  after_results
  rfl

/-- The second layer's weights likewise. -/
theorem V_v1 (c : Dev nD) :
    (V m c main_v1 : S512x1.Idx → EReal) = fun i => m ((c : Thread nD τ).loc main_arg3) i := by
  show StableHlo.after hostOps0 (fun b => m (c, b)) (Proc.devRef .tc main_v1) = _
  after_results
  rfl

/-- The first bias re-viewed as a column. -/
theorem V_v2 (c : Dev nD) :
    (V m c main_v2 : S512x1.Idx → EReal) = shapeCast S512x1 (m ((c : Thread nD τ).loc main_arg2)) shapeCasts_S512_S512x1 := by
  show StableHlo.after hostOps0 (fun b => m (c, b)) (Proc.devRef .tc main_v2) = _
  after_results
  rfl

/-- The second bias re-viewed as [1, 1]. -/
theorem V_v3 (c : Dev nD) :
    (V m c main_v3 : S1x1.Idx → EReal) = shapeCast S1x1 (m ((c : Thread nD τ).loc main_arg4)) shapeCasts_S1_S1x1 := by
  show StableHlo.after hostOps0 (fun b => m (c, b)) (Proc.devRef .tc main_v3) = _
  after_results
  rfl

/-! ## The blocks at a grid point are the specification's data of its batch element -/

theorem hz3 : (![0, 0, 0] : Fin 3 → Nat) = fun _ => 0 := funext fun a => by fin_cases a <;> rfl
theorem hz2 : (![0, 0] : Fin 2 → Nat) = fun _ => 0 := funext fun a => by fin_cases a <;> rfl

/-- The input's block at point `t` is batch `t`'s slab. -/
theorem blkX (c : Dev nD) (t : Fin cfg0.N) : bX (iblk m c 0 t) = slab (m ((c : Thread nD τ).loc main_arg0)) (bat t) := by
  funext d k
  obtain ⟨f0, f1, f2, -⟩ := idx_in t
  show V m c main_arg0 (((cfg0.win 0).blk t).view.emb (ix3 (0 : Fin 1) d k)) = (m ((c : Thread nD τ).loc main_arg0)) (ix3 (bat t) d k)
  rw [V_main_arg0]
  refine congrArg (m ((c : Thread nD τ).loc main_arg0)) (funext fun q => Fin.ext ?_)
  match q with
  | ⟨0, _⟩ => show win0_0.index t (0 : Fin 3) * 1 + 1 * 0 = t.val; omega
  | ⟨1, _⟩ => show win0_0.index t (1 : Fin 3) * 1500 + 1 * d.val = d.val; omega
  | ⟨2, _⟩ => show win0_0.index t (2 : Fin 3) * 1000 + 1 * k.val = k.val; omega

/-- The first layer's weights arrive whole at every point. -/
theorem blkW1 (c : Dev nD) (t : Fin cfg0.N) : bW1 (iblk m c 1 t) = mat (m ((c : Thread nD τ).loc main_arg1)) := by
  funext d a
  obtain ⟨-, -, -, f0, f1, -⟩ := idx_in t
  show V m c main_v0 (((cfg0.win 1).blk t).view.emb (ix2 d a)) = (m ((c : Thread nD τ).loc main_arg1)) (ix2 d a)
  have e : ((cfg0.win 1).blk t).view.emb (ix2 d a) = ix2 d a := funext fun q => Fin.ext (by
    match q with
    | ⟨0, _⟩ => show win0_1.index t (0 : Fin 2) * 1500 + 1 * d.val = d.val; omega
    | ⟨1, _⟩ => show win0_1.index t (1 : Fin 2) * 512 + 1 * a.val = a.val; omega)
  rw [e, V_v0]

/-- The first bias arrives whole, as a column. -/
theorem blkB1 (c : Dev nD) (t : Fin cfg0.N) : bB1 (iblk m c 2 t) = vec1 (m ((c : Thread nD τ).loc main_arg2)) := by
  funext a
  obtain ⟨-, -, -, -, -, f0, f1, -⟩ := idx_in t
  show V m c main_v2 (((cfg0.win 2).blk t).view.emb (ix2 a (0 : Fin 1))) = (m ((c : Thread nD τ).loc main_arg2)) (ix1 a)
  have e : ((cfg0.win 2).blk t).view.emb (ix2 a (0 : Fin 1)) = ix2 a (0 : Fin 1) := funext fun q => Fin.ext (by
    match q with
    | ⟨0, _⟩ => show win0_2.index t (0 : Fin 2) * 512 + 1 * a.val = a.val; omega
    | ⟨1, _⟩ => show win0_2.index t (1 : Fin 2) * 1 + 1 * 0 = 0; omega)
  rw [e, V_v2]
  exact shapeCast_apply _ _ _ _ (by
    show (S512.rowMajor (ix1 a)).val = (S512x1.rowMajor (ix2 a (0 : Fin 1))).val
    rw [Shape.rowMajor_val_one, Shape.rowMajor_val_two]
    show a.val = a.val * 1 + 0
    omega)

/-- The second layer's weights arrive whole. -/
theorem blkW2 (c : Dev nD) (t : Fin cfg0.N) : bW2 (iblk m c 3 t) = col (m ((c : Thread nD τ).loc main_arg3)) := by
  funext a
  obtain ⟨-, -, -, -, -, -, -, f0, f1, -⟩ := idx_in t
  show V m c main_v1 (((cfg0.win 3).blk t).view.emb (ix2 a (0 : Fin 1))) = (m ((c : Thread nD τ).loc main_arg3)) (ix2 a (0 : Fin 1))
  have e : ((cfg0.win 3).blk t).view.emb (ix2 a (0 : Fin 1)) = ix2 a (0 : Fin 1) := funext fun q => Fin.ext (by
    match q with
    | ⟨0, _⟩ => show win0_3.index t (0 : Fin 2) * 512 + 1 * a.val = a.val; omega
    | ⟨1, _⟩ => show win0_3.index t (1 : Fin 2) * 1 + 1 * 0 = 0; omega)
  rw [e, V_v1]

/-- The second bias arrives whole, as one entry. -/
theorem blkB2 (c : Dev nD) (t : Fin cfg0.N) : bB2 (iblk m c 4 t) = one (m ((c : Thread nD τ).loc main_arg4)) := by
  obtain ⟨-, -, -, -, -, -, -, -, -, f0, f1⟩ := idx_in t
  show V m c main_v3 (((cfg0.win 4).blk t).view.emb (ix2 (0 : Fin 1) (0 : Fin 1))) = (m ((c : Thread nD τ).loc main_arg4)) (ix1 (0 : Fin 1))
  have e : ((cfg0.win 4).blk t).view.emb (ix2 (0 : Fin 1) (0 : Fin 1)) = ix2 (0 : Fin 1) (0 : Fin 1) := funext fun q => Fin.ext (by
    match q with
    | ⟨0, _⟩ => show win0_4.index t (0 : Fin 2) * 1 + 1 * 0 = 0; omega
    | ⟨1, _⟩ => show win0_4.index t (1 : Fin 2) * 1 + 1 * 0 = 0; omega)
  rw [e, V_v3]
  exact castOne_apply _

/-! ## Output window 5: attention weights -/

/-- What the array ends holding: at (batch, 0, position) the specification's attention weights of that batch element. -/
def G5 (c : Dev nD) : S64x1x1000.Idx → EReal := fun i => attn (slab (m ((c : Thread nD τ).loc main_arg0)) (i 0)) (mat (m ((c : Thread nD τ).loc main_arg1))) (vec1 (m ((c : Thread nD τ).loc main_arg2))) (col (m ((c : Thread nD τ).loc main_arg3))) (one (m ((c : Thread nD τ).loc main_arg4))) (i 2)

theorem G5_at (c : Dev nD) (b : Fin 64) (k : Fin 1000) (i : S64x1x1000.Idx) (h0 : (i 0).val = b.val) (h2 : (i 2).val = k.val) :
    G5 m c i = attn (slab (m ((c : Thread nD τ).loc main_arg0)) b) (mat (m ((c : Thread nD τ).loc main_arg1))) (vec1 (m ((c : Thread nD τ).loc main_arg2))) (col (m ((c : Thread nD τ).loc main_arg3))) (one (m ((c : Thread nD τ).loc main_arg4))) k := by
  obtain ⟨b', v, k', rfl⟩ : ∃ (b' : Fin 64) (v : Fin 1) (k' : Fin 1000), i = ix3 b' v k' := ⟨i 0, i 1, i 2, eq_ix3 i⟩
  have e0 : b' = b := Fin.ext h0
  have e2 : k' = k := Fin.ext h2
  subst e0 e2
  rfl

/-- The stored block as one function of the block index. -/
theorem pay5_fn (x0 : Vec Ideal S1x1500x1000 .f32) (x1 : Vec Ideal S1500x512 .bf16) (x2 : Vec Ideal S512x1 .f32)
    (x3 : Vec Ideal S512x1 .bf16) (x4 : Vec Ideal S1x1 .f32) :
    k0_pay6 (F := Ideal) x0 x1 x2 x3 x4 = fun j : S1x1x1000.Idx => attn (bX x0) (bW1 x1) (bB1 x2) (bW2 x3) (bB2 x4) (j 2) := funext fun j => by
  obtain ⟨u, v, k, rfl⟩ : ∃ (u : Fin 1) (v : Fin 1) (k : Fin 1000), j = ix3 u v k := ⟨j 0, j 1, j 2, eq_ix3 j⟩
  have hu : u = 0 := Subsingleton.elim _ _
  have hv : v = 0 := Subsingleton.elim _ _
  subst hu hv
  exact out5Blk x0 x1 x2 x3 x4 k

/-- What point `t` writes back is row `t` of `G5`. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz3]
  simp only [View.ld_unit_zero (S := S1x1500x1000) hz3, View.ld_unit_zero (S := S1500x512) hz2,
    View.ld_unit_zero (S := S512x1) hz2, View.ld_unit_zero (S := S1x1) hz2]
  rw [pay5_fn (iblk m c 0 t) (iblk m c 1 t) (iblk m c 2 t) (iblk m c 3 t) (iblk m c 4 t)]
  funext j
  have hj0 : (j 0).val < 1 := (j 0).isLt
  have hj2 : (j 2).val < 1000 := (j 2).isLt
  obtain ⟨f50, f51, f52, f60, f61, f62, f70, f71, f72⟩ := idx_out t
  refine Eq.trans ?_ (G5_at m c (bat t) ⟨(j 2).val, hj2⟩ (((cfg0.win 5).blk t).view.emb j) ?_ ?_).symm
  · show attn (bX (iblk m c 0 t)) (bW1 (iblk m c 1 t)) (bB1 (iblk m c 2 t)) (bW2 (iblk m c 3 t)) (bB2 (iblk m c 4 t)) ⟨(j 2).val, hj2⟩ = _
    rw [blkX m c t, blkW1 m c t, blkB1 m c t, blkW2 m c t, blkB2 m c t]
  · show win0_5.index t (0 : Fin 3) * 1 + 1 * (j 0).val = t.val
    omega
  · show win0_5.index t (2 : Fin 3) * 1000 + 1 * (j 2).val = (j 2).val
    omega

/-- An index of the array is in point `t`'s block iff each coordinate is in the block's range on its axis. -/
theorem mem_blk5 (t : Fin cfg0.N) (i : S64x1x1000.Idx) :
    i ∈ ((cfg0.win 5).blk t).view.set ↔ ∀ a : Fin 3, win0_5.index t a * S1x1x1000.size a ≤ (i a).val
      ∧ (i a).val < win0_5.index t a * S1x1x1000.size a + S1x1x1000.size a := by
  show i ∈ ((View.whole main_v4_0).slice (win0_5.rect t)).set ↔ _
  rw [View.set_slice_whole, Rect.mem_set_unit]
  exact Iff.rfl

/-- Every index of the array is in the block of the point of its batch. -/
theorem cover5 (i : S64x1x1000.Idx) :
    ∃ t : Fin cfg0.N, (cfg0.win 5).flush t = true ∧ i ∈ ((cfg0.win 5).blk t).view.set := by
  have hi0 : (i 0).val < 64 := (i 0).isLt
  have hi1 : (i 1).val < 1 := (i 1).isLt
  have hi2 : (i 2).val < 1000 := (i 2).isLt
  obtain ⟨t, ht⟩ : ∃ t : Fin cfg0.N, t.val = (i 0).val := ⟨⟨(i 0).val, lt_of_lt_of_eq hi0 N_0.symm⟩, rfl⟩
  obtain ⟨f50, f51, f52, f60, f61, f62, f70, f71, f72⟩ := idx_out t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 1000 ≤ (i 2).val ∧ (i 2).val < win0_5.index t (2 : Fin 3) * 1000 + 1000; omega

/-- The array after the run. -/
theorem final5 (c : Dev nD) : (dats m 0 c).arrAt 5 cfg0.N = G5 m c :=
  (dats m 0 c).arrAt_eq_of_cover 5 (G5 m c) (fun t _ => flushed5_eq m c t) cover5

/-! ## Output window 6: weighted means -/

/-- What the array ends holding: at (batch, 0, position) the specification's weighted means of that batch element. -/
def G6 (c : Dev nD) : S64x1x1500.Idx → EReal := fun i => mean (slab (m ((c : Thread nD τ).loc main_arg0)) (i 0)) (mat (m ((c : Thread nD τ).loc main_arg1))) (vec1 (m ((c : Thread nD τ).loc main_arg2))) (col (m ((c : Thread nD τ).loc main_arg3))) (one (m ((c : Thread nD τ).loc main_arg4))) (i 2)

theorem G6_at (c : Dev nD) (b : Fin 64) (k : Fin 1500) (i : S64x1x1500.Idx) (h0 : (i 0).val = b.val) (h2 : (i 2).val = k.val) :
    G6 m c i = mean (slab (m ((c : Thread nD τ).loc main_arg0)) b) (mat (m ((c : Thread nD τ).loc main_arg1))) (vec1 (m ((c : Thread nD τ).loc main_arg2))) (col (m ((c : Thread nD τ).loc main_arg3))) (one (m ((c : Thread nD τ).loc main_arg4))) k := by
  obtain ⟨b', v, k', rfl⟩ : ∃ (b' : Fin 64) (v : Fin 1) (k' : Fin 1500), i = ix3 b' v k' := ⟨i 0, i 1, i 2, eq_ix3 i⟩
  have e0 : b' = b := Fin.ext h0
  have e2 : k' = k := Fin.ext h2
  subst e0 e2
  rfl

/-- The stored block as one function of the block index. -/
theorem pay6_fn (x0 : Vec Ideal S1x1500x1000 .f32) (x1 : Vec Ideal S1500x512 .bf16) (x2 : Vec Ideal S512x1 .f32)
    (x3 : Vec Ideal S512x1 .bf16) (x4 : Vec Ideal S1x1 .f32) :
    k0_pay1 (F := Ideal) (k0_pay8 (F := Ideal) x0 x1 x2 x3 x4) = fun j : S1x1x1500.Idx => mean (bX x0) (bW1 x1) (bB1 x2) (bW2 x3) (bB2 x4) (j 2) := funext fun j => by
  obtain ⟨u, v, k, rfl⟩ : ∃ (u : Fin 1) (v : Fin 1) (k : Fin 1500), j = ix3 u v k := ⟨j 0, j 1, j 2, eq_ix3 j⟩
  have hu : u = 0 := Subsingleton.elim _ _
  have hv : v = 0 := Subsingleton.elim _ _
  subst hu hv
  exact out6Blk x0 x1 x2 x3 x4 k

/-- What point `t` writes back is row `t` of `G6`. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz3]
  simp only [View.ld_unit_zero (S := S1x1500x1000) hz3, View.ld_unit_zero (S := S1500x512) hz2,
    View.ld_unit_zero (S := S512x1) hz2, View.ld_unit_zero (S := S1x1) hz2]
  rw [pay6_fn (iblk m c 0 t) (iblk m c 1 t) (iblk m c 2 t) (iblk m c 3 t) (iblk m c 4 t)]
  funext j
  have hj0 : (j 0).val < 1 := (j 0).isLt
  have hj2 : (j 2).val < 1500 := (j 2).isLt
  obtain ⟨f50, f51, f52, f60, f61, f62, f70, f71, f72⟩ := idx_out t
  refine Eq.trans ?_ (G6_at m c (bat t) ⟨(j 2).val, hj2⟩ (((cfg0.win 6).blk t).view.emb j) ?_ ?_).symm
  · show mean (bX (iblk m c 0 t)) (bW1 (iblk m c 1 t)) (bB1 (iblk m c 2 t)) (bW2 (iblk m c 3 t)) (bB2 (iblk m c 4 t)) ⟨(j 2).val, hj2⟩ = _
    rw [blkX m c t, blkW1 m c t, blkB1 m c t, blkW2 m c t, blkB2 m c t]
  · show win0_6.index t (0 : Fin 3) * 1 + 1 * (j 0).val = t.val
    omega
  · show win0_6.index t (2 : Fin 3) * 1500 + 1 * (j 2).val = (j 2).val
    omega

/-- An index of the array is in point `t`'s block iff each coordinate is in the block's range on its axis. -/
theorem mem_blk6 (t : Fin cfg0.N) (i : S64x1x1500.Idx) :
    i ∈ ((cfg0.win 6).blk t).view.set ↔ ∀ a : Fin 3, win0_6.index t a * S1x1x1500.size a ≤ (i a).val
      ∧ (i a).val < win0_6.index t a * S1x1x1500.size a + S1x1x1500.size a := by
  show i ∈ ((View.whole main_v4_1).slice (win0_6.rect t)).set ↔ _
  rw [View.set_slice_whole, Rect.mem_set_unit]
  exact Iff.rfl

/-- Every index of the array is in the block of the point of its batch. -/
theorem cover6 (i : S64x1x1500.Idx) :
    ∃ t : Fin cfg0.N, (cfg0.win 6).flush t = true ∧ i ∈ ((cfg0.win 6).blk t).view.set := by
  have hi0 : (i 0).val < 64 := (i 0).isLt
  have hi1 : (i 1).val < 1 := (i 1).isLt
  have hi2 : (i 2).val < 1500 := (i 2).isLt
  obtain ⟨t, ht⟩ : ∃ t : Fin cfg0.N, t.val = (i 0).val := ⟨⟨(i 0).val, lt_of_lt_of_eq hi0 N_0.symm⟩, rfl⟩
  obtain ⟨f50, f51, f52, f60, f61, f62, f70, f71, f72⟩ := idx_out t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 1500 ≤ (i 2).val ∧ (i 2).val < win0_6.index t (2 : Fin 3) * 1500 + 1500; omega

/-- The array after the run. -/
theorem final6 (c : Dev nD) : (dats m 0 c).arrAt 6 cfg0.N = G6 m c :=
  (dats m 0 c).arrAt_eq_of_cover 6 (G6 m c) (fun t _ => flushed6_eq m c t) cover6

/-! ## Output window 7: weighted deviations -/

/-- What the array ends holding: at (batch, 0, position) the specification's weighted deviations of that batch element. -/
def G7 (c : Dev nD) : S64x1x1500.Idx → EReal := fun i => spread (slab (m ((c : Thread nD τ).loc main_arg0)) (i 0)) (mat (m ((c : Thread nD τ).loc main_arg1))) (vec1 (m ((c : Thread nD τ).loc main_arg2))) (col (m ((c : Thread nD τ).loc main_arg3))) (one (m ((c : Thread nD τ).loc main_arg4))) (i 2)

theorem G7_at (c : Dev nD) (b : Fin 64) (k : Fin 1500) (i : S64x1x1500.Idx) (h0 : (i 0).val = b.val) (h2 : (i 2).val = k.val) :
    G7 m c i = spread (slab (m ((c : Thread nD τ).loc main_arg0)) b) (mat (m ((c : Thread nD τ).loc main_arg1))) (vec1 (m ((c : Thread nD τ).loc main_arg2))) (col (m ((c : Thread nD τ).loc main_arg3))) (one (m ((c : Thread nD τ).loc main_arg4))) k := by
  obtain ⟨b', v, k', rfl⟩ : ∃ (b' : Fin 64) (v : Fin 1) (k' : Fin 1500), i = ix3 b' v k' := ⟨i 0, i 1, i 2, eq_ix3 i⟩
  have e0 : b' = b := Fin.ext h0
  have e2 : k' = k := Fin.ext h2
  subst e0 e2
  rfl

/-- The stored block as one function of the block index. -/
theorem pay7_fn (x0 : Vec Ideal S1x1500x1000 .f32) (x1 : Vec Ideal S1500x512 .bf16) (x2 : Vec Ideal S512x1 .f32)
    (x3 : Vec Ideal S512x1 .bf16) (x4 : Vec Ideal S1x1 .f32) :
    k0_pay2 (F := Ideal) (k0_pay8 (F := Ideal) x0 x1 x2 x3 x4) (k0_pay9 (F := Ideal) x0 x1 x2 x3 x4) = fun j : S1x1x1500.Idx => spread (bX x0) (bW1 x1) (bB1 x2) (bW2 x3) (bB2 x4) (j 2) := funext fun j => by
  obtain ⟨u, v, k, rfl⟩ : ∃ (u : Fin 1) (v : Fin 1) (k : Fin 1500), j = ix3 u v k := ⟨j 0, j 1, j 2, eq_ix3 j⟩
  have hu : u = 0 := Subsingleton.elim _ _
  have hv : v = 0 := Subsingleton.elim _ _
  subst hu hv
  exact out7Blk x0 x1 x2 x3 x4 k

/-- What point `t` writes back is row `t` of `G7`. -/
theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  unfold out0_7
  rw [View.canon_unit_zero hz3]
  simp only [View.ld_unit_zero (S := S1x1500x1000) hz3, View.ld_unit_zero (S := S1500x512) hz2,
    View.ld_unit_zero (S := S512x1) hz2, View.ld_unit_zero (S := S1x1) hz2]
  rw [pay7_fn (iblk m c 0 t) (iblk m c 1 t) (iblk m c 2 t) (iblk m c 3 t) (iblk m c 4 t)]
  funext j
  have hj0 : (j 0).val < 1 := (j 0).isLt
  have hj2 : (j 2).val < 1500 := (j 2).isLt
  obtain ⟨f50, f51, f52, f60, f61, f62, f70, f71, f72⟩ := idx_out t
  refine Eq.trans ?_ (G7_at m c (bat t) ⟨(j 2).val, hj2⟩ (((cfg0.win 7).blk t).view.emb j) ?_ ?_).symm
  · show spread (bX (iblk m c 0 t)) (bW1 (iblk m c 1 t)) (bB1 (iblk m c 2 t)) (bW2 (iblk m c 3 t)) (bB2 (iblk m c 4 t)) ⟨(j 2).val, hj2⟩ = _
    rw [blkX m c t, blkW1 m c t, blkB1 m c t, blkW2 m c t, blkB2 m c t]
  · show win0_7.index t (0 : Fin 3) * 1 + 1 * (j 0).val = t.val
    omega
  · show win0_7.index t (2 : Fin 3) * 1500 + 1 * (j 2).val = (j 2).val
    omega

/-- An index of the array is in point `t`'s block iff each coordinate is in the block's range on its axis. -/
theorem mem_blk7 (t : Fin cfg0.N) (i : S64x1x1500.Idx) :
    i ∈ ((cfg0.win 7).blk t).view.set ↔ ∀ a : Fin 3, win0_7.index t a * S1x1x1500.size a ≤ (i a).val
      ∧ (i a).val < win0_7.index t a * S1x1x1500.size a + S1x1x1500.size a := by
  show i ∈ ((View.whole main_v4_2).slice (win0_7.rect t)).set ↔ _
  rw [View.set_slice_whole, Rect.mem_set_unit]
  exact Iff.rfl

/-- Every index of the array is in the block of the point of its batch. -/
theorem cover7 (i : S64x1x1500.Idx) :
    ∃ t : Fin cfg0.N, (cfg0.win 7).flush t = true ∧ i ∈ ((cfg0.win 7).blk t).view.set := by
  have hi0 : (i 0).val < 64 := (i 0).isLt
  have hi1 : (i 1).val < 1 := (i 1).isLt
  have hi2 : (i 2).val < 1500 := (i 2).isLt
  obtain ⟨t, ht⟩ : ∃ t : Fin cfg0.N, t.val = (i 0).val := ⟨⟨(i 0).val, lt_of_lt_of_eq hi0 N_0.symm⟩, rfl⟩
  obtain ⟨f50, f51, f52, f60, f61, f62, f70, f71, f72⟩ := idx_out t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 1500 ≤ (i 2).val ∧ (i 2).val < win0_7.index t (2 : Fin 3) * 1500 + 1500; omega

/-- The array after the run. -/
theorem final7 (c : Dev nD) : (dats m 0 c).arrAt 7 cfg0.N = G7 m c :=
  (dats m 0 c).arrAt_eq_of_cover 7 (G7 m c) (fun t _ => flushed7_eq m c t) cover7

end Cert.AttnPool.Ker

end
-- ==== Proof.KerRun.lean ====
/-
  The kernel program's run, read. After the region the host swaps the last two axes of each of the three output arrays
  ([64, 1, n] to [64, n, 1]), joins the means and the deviations along the feature axis and drops the trailing unit axis.
  The swapped arrays are the specification's three arrays, so the program's two results are: the attention array, and the
  join of the mean and deviation arrays re-viewed as [64, 3000].
-/
import proofs.«104113_j39676907888369_2_alg».proof.Proof.KerBlocks

noncomputable section

namespace Cert.AttnPool.Ker

open Cert.KernelIdeal Cert.KernelIdeal.Gen Idealize.ShloMosaic Idealize.ShloMosaic.TcCoe Idealize.ShloMosaic.ValueIdx
open Idealize.SL.Sem Cert.AttnPool
open Idealize.ShloMosaic.Pipeline (Dat)

variable (m : (ℓ : Loc nD τ sig) → Buf (Elt Ideal) ℓ) (ρ : Dev nD → PrngReg)

/-! ## The three output arrays with their last two axes swapped -/

theorem swap5 (c : Dev nD) :
    transpose S64x1000x1 [0, 2, 1] (G5 m c) transposes_S64x1x1000_S64x1000x1_0_2_1 = attnArr (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, t, u, rfl⟩ : ∃ (b : Fin 64) (t : Fin 1000) (u : Fin 1), i = ix3 b t u := ⟨i 0, i 1, i 2, eq_ix3 i⟩
  refine (transpose_apply [0, 2, 1] (G5 m c) _ (ix3 b t u) (ix3 b u t) (fun q => by
    match q with
    | ⟨0, _⟩ => rfl
    | ⟨1, _⟩ => rfl
    | ⟨2, _⟩ => rfl)).trans ?_
  exact G5_at m c b t (ix3 b u t) rfl rfl

theorem swap6 (c : Dev nD) :
    transpose S64x1500x1 [0, 2, 1] (G6 m c) transposes_S64x1x1500_S64x1500x1_0_2_1 = meanArr (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, d, u, rfl⟩ : ∃ (b : Fin 64) (d : Fin 1500) (u : Fin 1), i = ix3 b d u := ⟨i 0, i 1, i 2, eq_ix3 i⟩
  refine (transpose_apply [0, 2, 1] (G6 m c) _ (ix3 b d u) (ix3 b u d) (fun q => by
    match q with
    | ⟨0, _⟩ => rfl
    | ⟨1, _⟩ => rfl
    | ⟨2, _⟩ => rfl)).trans ?_
  exact G6_at m c b d (ix3 b u d) rfl rfl

theorem swap7 (c : Dev nD) :
    transpose S64x1500x1 [0, 2, 1] (G7 m c) transposes_S64x1x1500_S64x1500x1_0_2_1 = spreadArr (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, d, u, rfl⟩ : ∃ (b : Fin 64) (d : Fin 1500) (u : Fin 1), i = ix3 b d u := ⟨i 0, i 1, i 2, eq_ix3 i⟩
  refine (transpose_apply [0, 2, 1] (G7 m c) _ (ix3 b d u) (ix3 b u d) (fun q => by
    match q with
    | ⟨0, _⟩ => rfl
    | ⟨1, _⟩ => rfl
    | ⟨2, _⟩ => rfl)).trans ?_
  exact G7_at m c b d (ix3 b u d) rfl rfl

/-! ## The two results -/

/-- The first result: the attention weights [64, 1000, 1]. -/
def attnOut (c : Dev nD) : S64x1000x1.Idx → EReal := attnArr (m ((c : Thread nD τ).loc main_arg0)) (m ((c : Thread nD τ).loc main_arg1)) (m ((c : Thread nD τ).loc main_arg2)) (m ((c : Thread nD τ).loc main_arg3)) (m ((c : Thread nD τ).loc main_arg4))

/-- The second result: means then deviations along the feature axis, re-viewed as [64, 3000]. -/
def poolOut (c : Dev nD) : S64x3000.Idx → EReal :=
  shapeCast S64x3000 (concatenate S64x3000x1 1 [⟨S64x1500x1, meanArr (m ((c : Thread nD τ).loc main_arg0)) (m ((c : Thread nD τ).loc main_arg1)) (m ((c : Thread nD τ).loc main_arg2)) (m ((c : Thread nD τ).loc main_arg3)) (m ((c : Thread nD τ).loc main_arg4))⟩, ⟨S64x1500x1, spreadArr (m ((c : Thread nD τ).loc main_arg0)) (m ((c : Thread nD τ).loc main_arg1)) (m ((c : Thread nD τ).loc main_arg2)) (m ((c : Thread nD τ).loc main_arg3)) (m ((c : Thread nD τ).loc main_arg4))⟩]
    concatenates_S64x1500x1_S64x1500x1_S64x3000x1_d1) shapeCasts_S64x3000x1_S64x3000

/-- What the lines after the region leave in the first result's buffer. -/
theorem tail_attn (c : Dev nD) :
    Pipeline.afterTail₀ cfgs (dats m) 0 (V0 m) [hostOps1] c main_v5 = attnOut m c := by
  unfold Pipeline.afterTail₀
  show StableHlo.after hostOps1 _ (Proc.devRef .tc main_v5) = _
  after_results
  refine Eq.trans ?_ (swap5 m c)
  exact congrArg (fun a => transpose S64x1000x1 [0, 2, 1] a transposes_S64x1x1000_S64x1000x1_0_2_1)
    ((Pipeline.withArrays_arr spec0 launch0.win.arr_inj c _ _ 5).trans (final5 m c))

/-- What they leave in the second result's buffer. -/
theorem tail_pool (c : Dev nD) :
    Pipeline.afterTail₀ cfgs (dats m) 0 (V0 m) [hostOps1] c main_v9 = poolOut m c := by
  unfold Pipeline.afterTail₀
  show StableHlo.after hostOps1 _ (Proc.devRef .tc main_v9) = _
  after_results
  unfold poolOut
  rw [← swap6 m c, ← swap7 m c]
  exact congrArg₂ (fun a b => shapeCast S64x3000 (concatenate S64x3000x1 1
      [⟨S64x1500x1, transpose S64x1500x1 [0, 2, 1] a transposes_S64x1x1500_S64x1500x1_0_2_1⟩,
       ⟨S64x1500x1, transpose S64x1500x1 [0, 2, 1] b transposes_S64x1x1500_S64x1500x1_0_2_1⟩]
      concatenates_S64x1500x1_S64x1500x1_S64x3000x1_d1) shapeCasts_S64x3000x1_S64x3000)
    ((Pipeline.withArrays_arr spec0 launch0.win.arr_inj c _ _ 6).trans (final6 m c))
    ((Pipeline.withArrays_arr spec0 launch0.win.arr_inj c _ _ 7).trans (final7 m c))

/-- The kernel program's run: every weakly fair execution ends with the two results at the specification's arrays and
    the five arguments as launched. -/
theorem run : θ_run defs (onTc (τ := τ) (main (F := Ideal))) ⟨m, fun _ => 0, ρ⟩ (fun r => ∀ c : Dev nD,
      r.2.mem ((c.tc : Thread nD τ).loc main_v5) = attnOut m c
      ∧ r.2.mem ((c.tc : Thread nD τ).loc main_v9) = poolOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (tail_attn m c),
      ((h c).2 main_v9 (Pipeline.mem_restRefs_of main_v9 (by decide) (by decide))).trans (tail_pool m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.AttnPool.Ker

end
-- ==== Proof.lean ====
/-
  Attention pooling over time: the kernel program against its plain reference, on the extended reals.

  For each of the 64 batch elements both programs take the slab X (1500 features by 1000 time steps), pass every time
  step's column through a two-layer perceptron (512 hidden units clipped at zero, one output) to get a score per time step,
  turn the scores into weights by a softmax over time (each score less the row's maximum, exponentiated, over the sum of
  the exponentials), and pool the slab with those weights: the weighted mean of every feature, the weighted mean of its
  square, and from the two the weighted standard deviation sqrt (max (meanSq − mean², 0) + ε). The results are the
  weights as [64, 1000, 1] and the means followed by the deviations as [64, 3000].

  The kernel works one batch element per grid point, with time along the lanes: it multiplies with the weights on the LEFT
  of each product (hidden = W1ᵀ X, scores = W2ᵀ hidden, pooled = attn Xᵀ), rounds the operands of each product to bf16
  first, and writes rows [1, n] that the host then swaps into columns. The reference multiplies with the input on the left
  and never changes format. On the extended reals a change of format is the identity, a matrix product into a zero
  accumulator and a host contraction are the same finite sum, and the sums differ only in the order of the two factors
  of each term — so the product's commutativity is the whole algebra; −∞ being neutral for the maximum removes the
  reference's extra comparison with −∞, and a zero initial value its sum's. No finiteness of the inputs is used.

  Modules: Spec (the per-batch functions), Arrays (the argument arrays as that data), RefSide (the reference's stages are
  the specification), KerDots / KerBody (the kernel body's stages on one point's blocks are the specification),
  KerBlocks (the 64 rows each output receives make it one function of the arguments), KerRun (the host's swaps and
  join after the region), and here the five claims.
-/
import proofs.«104113_j39676907888369_2_alg».proof.Defs
import proofs.«104113_j39676907888369_2_alg».proof.Proof.Gen.Kernel
import proofs.«104113_j39676907888369_2_alg».proof.Proof.Gen.Kernel.Skeleton
import proofs.«104113_j39676907888369_2_alg».proof.Proof.Gen.Kernel.Launch
import proofs.«104113_j39676907888369_2_alg».proof.Proof.Gen.Kernel.Points
import proofs.«104113_j39676907888369_2_alg».proof.Proof.Gen.Kernel.Frame
import proofs.«104113_j39676907888369_2_alg».proof.Proof.Gen.KernelIdeal
import proofs.«104113_j39676907888369_2_alg».proof.Proof.Gen.KernelIdeal.Skeleton
import proofs.«104113_j39676907888369_2_alg».proof.Proof.Gen.KernelIdeal.Launch
import proofs.«104113_j39676907888369_2_alg».proof.Proof.Gen.KernelIdeal.Points
import proofs.«104113_j39676907888369_2_alg».proof.Proof.Gen.KernelIdeal.Frame
import proofs.«104113_j39676907888369_2_alg».proof.Proof.Gen.ReferenceIdeal
import proofs.«104113_j39676907888369_2_alg».proof.Proof.Gen.Pre_finite_inputs
import proofs.«104113_j39676907888369_2_alg».proof.Proof.RefSide
import proofs.«104113_j39676907888369_2_alg».proof.Proof.KerRun
import Idealize.ShloMosaic.Adequacy
import Idealize.ShloMosaic.Init

noncomputable section

namespace Cert.Proof

open Idealize.ShloMosaic Idealize.ShloMosaic.TcCoe Idealize.SL.Sem Cert.AttnPool

/-- The word-level kernel program runs, faults nowhere and leaves its arguments as launched. -/
theorem frame_p : Cert.frame_Kernel := fun m ρ _ => Cert.Kernel.Gen.frame m ρ

/-- So does its reading on the extended reals. -/
theorem frame_pi : Cert.frame_KernelIdeal := fun m ρ _ => Cert.KernelIdeal.Gen.frame m ρ

/-- The reference is a straight line of host operations: its run, with the two results forgotten. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation of the kernel program. -/
theorem preserves : Cert.preserves_Kernel_KernelIdeal := trivial

/-- From memories agreeing on the five arguments both programs end with the attention array and the joined
    mean and deviation arrays of the specification. -/
theorem algebraic : Cert.algebraic_KernelIdeal_ReferenceIdeal := by
  intro m ρ m' ρ' _ hagree
  refine ⟨fun c => Ker.attnOut m c, fun c => Ker.poolOut m c, Ker.run m ρ, ?_⟩
  refine (θ_run Cert.ReferenceIdeal.defs _ _).mono (fun _ h c => ⟨?_, ?_, (h c).2.2⟩)
    (Cert.ReferenceIdeal.ValueP.run (F := Ideal) m' ρ')
  · rw [(h c).1, Cert.ReferenceIdeal.ReadP.val_main_v20_eq, Ref.attnArr_eq, (hagree c).1, (hagree c).2.1, (hagree c).2.2.1,
      (hagree c).2.2.2.1, (hagree c).2.2.2.2]
    rfl
  · rw [(h c).2.1, Cert.ReferenceIdeal.ReadP.val_main_v31_eq]
    unfold Cert.ReferenceIdeal.ReadP.val_main_v31 Cert.ReferenceIdeal.ReadP.val_main_v30
    rw [Ref.meanArr_eq, Ref.spreadArr_eq, (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
